-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3200000 : Shape := ⟨2, ![2, 3200000]⟩
abbrev S3200000 : Shape := ⟨1, ![3200000]⟩
abbrev S512x64 : Shape := ⟨2, ![512, 64]⟩
abbrev S64 : Shape := ⟨1, ![64]⟩
abbrev S64x16 : Shape := ⟨2, ![64, 16]⟩
abbrev S16 : Shape := ⟨1, ![16]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S3200000 : S_.BroadcastsInDim S3200000 (![] : Fin 0 → Fin S3200000.rank)
  reducesTo_S3200000_S_d0 : S3200000.ReducesTo [0] S_
  bcast_S_S512x64 : S_.BroadcastsInDim S512x64 (![] : Fin 0 → Fin S512x64.rank)
  reducesTo_S512x64_S_d0_1 : S512x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S64x16 .f32) (main_arg6 : FVec F S16 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x16 .f32 := Host.absf main_arg5
  let main_cst_6 : FVec F S_ .f32 := constant S_ .f32 0x7F800000#32
  let main_v20 : FVec F S64x16 .f32 := broadcastInDim S64x16 ![] bcast_S_S64x16 main_cst_6
  let main_v21 : IVec S64x16 1 := cmpf .olt main_v19 main_v20
  let main_c_7 : IVec S_ 1 := constantI S_ 1 1#1
  let main_v22 : IVec S_ 1 := (fun x v => Host.reduce IntOp.andi x v reducesTo_S64x16_S_d0_1 h_S_) main_v21 main_c_7
  let main_v23 : IVec S_ 1 := andi main_v18 main_v22
  let main_v24 : FVec F S16 .f32 := Host.absf main_arg6
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  main_v28

def fn {F : FTy → Type} [FloatOps F] (main_arg0 : FVec F S100000x512 .f32) (main_arg1 : IVec S2x3200000 32) (main_arg2 : FVec F S3200000 .f32) (main_arg3 : FVec F S512x64 .f32) (main_arg4 : FVec F S64 .f32) (main_arg5 : FVec F S64x16 .f32) (main_arg6 : FVec F S16 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S3200000 .f32 := Host.absf main_arg2
  let main_cst_0 : FVec F S_ .f32 := constant S_ .f32 0x7F800000#32
  let main_v5 : FVec F S3200000 .f32 := broadcastInDim S3200000 ![] bcast_S_S3200000 main_cst_0
  let main_v6 : IVec S3200000 1 := cmpf .olt main_v4 main_v5
  let main_c_1 : IVec S_ 1 := constantI S_ 1 1#1
  let main_v7 : IVec S_ 1 := (fun x v => Host.reduce IntOp.andi x v reducesTo_S3200000_S_d0 h_S_) main_v6 main_c_1
  let main_v8 : IVec S_ 1 := andi main_v3 main_v7
  let main_v9 : FVec F S512x64 .f32 := Host.absf main_arg3
  let main_cst_2 : FVec F S_ .f32 := constant S_ .f32 0x7F800000#32
  let main_v10 : FVec F S512x64 .f32 := broadcastInDim S512x64 ![] bcast_S_S512x64 main_cst_2
  let main_v11 : IVec S512x64 1 := cmpf .olt main_v9 main_v10
  let main_c_3 : IVec S_ 1 := constantI S_ 1 1#1
  let main_v12 : IVec S_ 1 := (fun x v => Host.reduce IntOp.andi x v reducesTo_S512x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_v13 main_v16
-- ==== Kernel.lean ====
abbrev S100000x512 : Shape := ⟨2, ![100000, 512]⟩
abbrev S2x3200000 : Shape := ⟨2, ![2, 3200000]⟩
abbrev S3200000 : Shape := ⟨1, ![3200000]⟩
abbrev S512x64 : Shape := ⟨2, ![512, 64]⟩
abbrev S64 : Shape := ⟨1, ![64]⟩
abbrev S64x16 : Shape := ⟨2, ![64, 16]⟩
abbrev S16 : Shape := ⟨1, ![16]⟩
abbrev S100000 : Shape := ⟨1, ![100000]⟩
abbrev S1x3200000 : Shape := ⟨2, ![1, 3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S5000x512 : Shape := ⟨2, ![5000, 512]⟩
abbrev S5000x64 : Shape := ⟨2, ![5000, 64]⟩
abbrev S3300000x64 : Shape := ⟨2, ![3300000, 64]⟩
abbrev S1x64 : Shape := ⟨2, ![1, 64]⟩
abbrev S100000x16 : Shape := ⟨2, ![100000, 16]⟩
abbrev S5000x16 : Shape := ⟨2, ![5000, 16]⟩
abbrev S3300000x16 : Shape := ⟨2, ![3300000, 16]⟩
abbrev S1x16 : Shape := ⟨2, ![1, 16]⟩
abbrev S5000 : Shape := ⟨1, ![5000]⟩
abbrev S5000x1 : Shape := ⟨2, ![5000, 1]⟩

abbrev nBuf : Space → Nat
  | .hbm => 93
  | .vmem => 16
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S3200000, .f32⟩
  | .hbm, ⟨3, _⟩ => ⟨S512x64, .f32⟩
  | .hbm, ⟨4, _⟩ => ⟨S64, .f32⟩
  | .hbm, ⟨5, _⟩ => ⟨S64x16, .f32⟩
  | .hbm, ⟨6, _⟩ => ⟨S16, .f32⟩
  | .hbm, ⟨7, _⟩ => ⟨S100000, .i32⟩
  | .hbm, ⟨8, _⟩ => ⟨S1x3200000, .i32⟩
  | .hbm, ⟨9, _⟩ => ⟨S3200000, .i32⟩
  | .hbm, ⟨10, _⟩ => ⟨S3300000, .i32⟩
  | .hbm, ⟨11, _⟩ => ⟨S1x3200000, .i32⟩
  | .hbm, ⟨12, _⟩ => ⟨S3200000, .i32⟩
  | .hbm, ⟨13, _⟩ => ⟨S3300000, .i32⟩
  | .hbm, ⟨14, _⟩ => ⟨S_, .f32⟩
  | .hbm, ⟨15, _⟩ => ⟨S100000, .f32⟩
  | .hbm, ⟨16, _⟩ => ⟨S3300000, .f32⟩
  | .hbm, ⟨17, _⟩ => ⟨S_, .f32⟩
  | .hbm, ⟨18, _⟩ => ⟨S100000, .f32⟩
  | .hbm, ⟨19, _⟩ => ⟨S3300000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .i1⟩
  | .hbm, ⟨31, _⟩ => ⟨S100000, .f32⟩
  | .hbm, ⟨32, _⟩ => ⟨S_, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S_, .i32⟩
  | .hbm, ⟨47, _⟩ => ⟨S3300000, .i32⟩
  | .hbm, ⟨48, _⟩ => ⟨S3300000, .i1⟩
  | .hbm, ⟨49, _⟩ => ⟨S_, .i32⟩
  | .hbm, ⟨50, _⟩ => ⟨S3300000, .i32⟩
  | .hbm, ⟨51, _⟩ => ⟨S3300000, .i32⟩
  | .hbm, ⟨52, _⟩ => ⟨S3300000, .i32⟩
  | .hbm, ⟨53, _⟩ => ⟨S3300000x1, .i32⟩
  | .hbm, ⟨54, _⟩ => ⟨S3300000, .f32⟩
  | .hbm, ⟨55, _⟩ => ⟨S3300000, .f32⟩
  | .hbm, ⟨56, _⟩ => ⟨S100000x64, .f32⟩
  | .hbm, ⟨57, _⟩ => ⟨S_, .i32⟩
  | .hbm, ⟨58, _⟩ => ⟨S3300000, .i32⟩
  | .hbm, ⟨59, _⟩ => ⟨S3300000, .i1⟩
  | .hbm, ⟨60, _⟩ => ⟨S_, .i32⟩
  | .hbm, ⟨61, _⟩ => ⟨S3300000, .i32⟩
  | .hbm, ⟨62, _⟩ => ⟨S3300000, .i32⟩
  | .hbm, ⟨63, _⟩ => ⟨S3300000, .i32⟩
  | .hbm, ⟨64, _⟩ => ⟨S3300000x1, .i32⟩
  | .hbm, ⟨65, _⟩ => ⟨S3300000x64, .f32⟩
  | .hbm, ⟨66, _⟩ => ⟨S3300000x1, .f32⟩
  | .hbm, ⟨67, _⟩ => ⟨S3300000x64, .f32⟩
  | .hbm, ⟨68, _⟩ => ⟨S3300000x64, .f32⟩
  | .hbm, ⟨69, _⟩ => ⟨S_, .f32⟩
  | .hbm, ⟨70, _⟩ => ⟨S100000x64, .f32⟩
  | .hbm, ⟨71, _⟩ => ⟨S3300000x1, .i32⟩
  | .hbm, ⟨72, _⟩ => ⟨S100000x64, .f32⟩
  | .hbm, ⟨73, _⟩ => ⟨S1x64, .f32⟩
  | .hbm, ⟨74, _⟩ => ⟨S100000x16, .f32⟩
  | .hbm, ⟨75, _⟩ => ⟨S_, .i32⟩
  | .hbm, ⟨76, _⟩ => ⟨S3300000, .i32⟩
  | .hbm, ⟨77, _⟩ => ⟨S3300000, .i1⟩
  | .hbm, ⟨78, _⟩ => ⟨S_, .i32⟩
  | .hbm, ⟨79, _⟩ => ⟨S3300000, .i32⟩
  | .hbm, ⟨80, _⟩ => ⟨S3300000, .i32⟩
  | .hbm, ⟨81, _⟩ => ⟨S3300000, .i32⟩
  | .hbm, ⟨82, _⟩ => ⟨S3300000x1, .i32⟩
  | .hbm, ⟨83, _⟩ => ⟨S3300000x16, .f32⟩
  | .hbm, ⟨84, _⟩ => ⟨S3300000x1, .f32⟩
  | .hbm, ⟨85, _⟩ => ⟨S3300000x16, .f32⟩
  | .hbm, ⟨86, _⟩ => ⟨S3300000x16, .f32⟩
  | .hbm, ⟨87, _⟩ => ⟨S_, .f32⟩
  | .hbm, ⟨88, _⟩ => ⟨S100000x16, .f32⟩
  | .hbm, ⟨89, _⟩ => ⟨S3300000x1, .i32⟩
  | .hbm, ⟨90, _⟩ => ⟨S100000x16, .f32⟩
  | .hbm, ⟨91, _⟩ => ⟨S1x16, .f32⟩
  | .hbm, ⟨92, _⟩ => ⟨S100000x16, .f32⟩
  | .local _ .vmem, ⟨0, _⟩ => ⟨S5000x512, .f32⟩
  | .local _ .vmem, ⟨1, _⟩ => ⟨S5000x512, .f32⟩
  | .local _ .vmem, ⟨2, _⟩ => ⟨S512x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S64x16, .f32⟩
  | .local _ .vmem, ⟨9, _⟩ => ⟨S5000x16, .f32⟩
  | .local _ .vmem, ⟨10, _⟩ => ⟨S5000x16, .f32⟩
  | .local _ .vmem, ⟨11, _⟩ => ⟨S5000x16, .f32⟩
  | .local _ .vmem, ⟨12, _⟩ => ⟨S5000x16, .f32⟩
  | .local _ .vmem, ⟨13, _⟩ => ⟨S1x16, .f32⟩
  | .local _ .vmem, ⟨14, _⟩ => ⟨S5000x16, .f32⟩
  | .local _ .vmem, ⟨15, _⟩ => ⟨S5000x16, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_cst_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_call1_v0 : Ref sig .tc := ⟨.hbm, 33, rfl⟩
abbrev main_call1_v1 : Ref sig .tc := ⟨.hbm, 34, rfl⟩
abbrev main_v18 : Ref sig .tc := ⟨.hbm, 35, rfl⟩
abbrev main_c : Ref sig .tc := ⟨.hbm, 36, rfl⟩
abbrev main_v19 : Ref sig .tc := ⟨.hbm, 37, rfl⟩
abbrev main_v20 : Ref sig .tc := ⟨.hbm, 38, rfl⟩
abbrev main_c_5 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_c_6 : Ref sig .tc := ⟨.hbm, 46, rfl⟩
abbrev main_v27 : Ref sig .tc := ⟨.hbm, 47, rfl⟩
abbrev main_v28 : Ref sig .tc := ⟨.hbm, 48, rfl⟩
abbrev main_c_7 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_c_8 : Ref sig .tc := ⟨.hbm, 57, rfl⟩
abbrev main_v36 : Ref sig .tc := ⟨.hbm, 58, rfl⟩
abbrev main_v37 : Ref sig .tc := ⟨.hbm, 59, rfl⟩
abbrev main_c_9 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_10 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_c_11 : Ref sig .tc := ⟨.hbm, 75, rfl⟩
abbrev main_v51 : Ref sig .tc := ⟨.hbm, 76, rfl⟩
abbrev main_v52 : Ref sig .tc := ⟨.hbm, 77, rfl⟩
abbrev main_c_12 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_13 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S3300000 : S_.BroadcastsInDim S3300000 (![] : Fin 0 → Fin S3300000.rank)
  inb_S5000x512_S5000x512_0_0 : ∀ a, (![0, 0] : Fin 2 → Nat) a + S5000x512.size a ≤ S5000x512.size a
  h_S5000x512 : 0 < S5000x512.numel
  bitsLt_bf16_f32 : FTy.bits .bf16 < FTy.bits .f32
  inb_S512x64_S512x64_0_0 : ∀ a, (![0, 0] : Fin 2 → Nat) a + S512x64.size a ≤ S512x64.size a
  h_S512x64 : 0 < S512x64.numel
  inb_S5000x64_S5000x64_0_0 : ∀ a, (![0, 0] : Fin 2 → Nat) a + S5000x64.size a ≤ S5000x64.size a
  h_S5000x64 : 0 < S5000x64.numel
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x16_S64x16_0_0 : ∀ a, (![0, 0] : Fin 2 → Nat) a + S64x16.size a ≤ S64x16.size a
  h_S64x16 : 0 < S64x16.numel
  inb_S5000x16_S5000x16_0_0 : ∀ a, (![0, 0] : Fin 2 → Nat) a + S5000x16.size a ≤ S5000x16.size a
  h_S5000x16 : 0 < S5000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  shapeCasts_S16_S1x16 : S16.ShapeCasts S1x16
  shapeCasts_S5000x16_S5000x16 : S5000x16.ShapeCasts S5000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  reduces_S5000x16_S5000 : S5000x16.Reduces [1] S5000
  shapeCasts_S5000_S5000x1 : S5000.ShapeCasts S5000x1
  broadcasts_S5000x1_S5000x16 : S5000x1.Broadcasts S5000x16
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S5000x512_S512x64_S5000x64_1_0_0_1_n_n_wf : DotDims.WF S5000x512 S512x64 S5000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S5000x64_S64x16_S5000x16_1_0_0_1_n_n_wf : DotDims.WF S5000x64 S64x16 S5000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S100000x512.size a
  hwx0_0 : ∀ i : grid0.Coords, EltTy.bits .f32 = 32 ∨ (Rect.block (s := S100000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S512x64.size a
  hwx0_1 : ∀ i : grid0.Coords, EltTy.bits .f32 = 32 ∨ (Rect.block (s := S512x64) S512x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x16.size a ≤ S64x16.size a
  hwx1_2 : ∀ i : grid1.Coords, EltTy.bits .f32 = 32 ∨ (Rect.block (s := S64x16) S64x16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x16.size a ≤ S100000x16.size a
  hwx1_3 : ∀ i : grid1.Coords, EltTy.bits .f32 = 32 ∨ (Rect.block (s := S100000x16) S5000x16.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x16.size a ≤ S100000x16.size a
  hwx2_0 : ∀ i : grid2.Coords, EltTy.bits .f32 = 32 ∨ (Rect.block (s := S100000x16) S5000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x16.size a ≤ S1x16.size a
  hwx2_1 : ∀ i : grid2.Coords, EltTy.bits .f32 = 32 ∨ (Rect.block (s := S1x16) S1x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x16.size a ≤ S100000x16.size a
  hwx2_2 : ∀ i : grid2.Coords, EltTy.bits .f32 = 32 ∨ (Rect.block (s := S100000x16) S5000x16.size (cc2_transform_2 i) (hinb2_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S5000x512_S512x64_S5000x64_1_0_0_1_n_n : DotDims S5000x512 S512x64 S5000x64 where
  lhsContracting := [1]
  rhsContracting := [0]
  lhsNonContracting := [0]
  rhsNonContracting := [1]
  lhsBatch := []
  rhsBatch := []
  wf := dot_S5000x512_S512x64_S5000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S5000x64_S64x16_S5000x16_1_0_0_1_n_n : DotDims S5000x64 S64x16 S5000x16 where
  lhsContracting := [1]
  rhsContracting := [0]
  lhsNonContracting := [0]
  rhsNonContracting := [1]
  lhsBatch := []
  rhsBatch := []
  wf := dot_S5000x64_S64x16_S5000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v35) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v49) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v50) S5000x16.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v63) S5000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v64) S1x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v65) S5000x16.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x512 : Shape := ⟨2, ![100000, 512]⟩
abbrev S2x3200000 : Shape := ⟨2, ![2, 3200000]⟩
abbrev S3200000 : Shape := ⟨1, ![3200000]⟩
abbrev S512x64 : Shape := ⟨2, ![512, 64]⟩
abbrev S64 : Shape := ⟨1, ![64]⟩
abbrev S64x16 : Shape := ⟨2, ![64, 16]⟩
abbrev S16 : Shape := ⟨1, ![16]⟩
abbrev S100000 : Shape := ⟨1, ![100000]⟩
abbrev S1x3200000 : Shape := ⟨2, ![1, 3200000]⟩
abbrev S3300000 : Shape := ⟨1, ![3300000]⟩
abbrev S_ : Shape := ⟨0, ![]⟩
abbrev S100000x64 : Shape := ⟨2, ![100000, 64]⟩
abbrev S3300000x1 : Shape := ⟨2, ![3300000, 1]⟩
abbrev S3300000x64 : Shape := ⟨2, ![3300000, 64]⟩
abbrev S1x64 : Shape := ⟨2, ![1, 64]⟩
abbrev S100000x16 : Shape := ⟨2, ![100000, 16]⟩
abbrev S3300000x16 : Shape := ⟨2, ![3300000, 16]⟩
abbrev S1x16 : Shape := ⟨2, ![1, 16]⟩
abbrev S100000x1 : Shape := ⟨2, ![100000, 1]⟩

abbrev nBuf : Space → Nat
  | .hbm => 153
  | .vmem => 0
  | .smem => 0
  | _ => 0

abbrev hbmTy0_0 (i : Nat) : BufTy := match i % 128 with
  | 0 => ⟨S100000x512, .f32⟩
  | 1 => ⟨S2x3200000, .i32⟩
  | 2 => ⟨S3200000, .f32⟩
  | 3 => ⟨S512x64, .f32⟩
  | 4 => ⟨S64, .f32⟩
  | 5 => ⟨S64x16, .f32⟩
  | 6 => ⟨S16, .f32⟩
  | 7 => ⟨S100000, .i32⟩
  | 8 => ⟨S1x3200000, .i32⟩
  | 9 => ⟨S3200000, .i32⟩
  | 10 => ⟨S3300000, .i32⟩
  | 11 => ⟨S1x3200000, .i32⟩
  | 12 => ⟨S3200000, .i32⟩
  | 13 => ⟨S3300000, .i32⟩
  | 14 => ⟨S_, .f32⟩
  | 15 => ⟨S100000, .f32⟩
  | 16 => ⟨S3300000, .f32⟩
  | 17 => ⟨S100000x64, .f32⟩
  | 18 => ⟨S_, .f32⟩
  | 19 => ⟨S100000, .f32⟩
  | 20 => ⟨S3300000x1, .i32⟩
  | 21 => ⟨S100000, .f32⟩
  | 22 => ⟨S_, .f32⟩
  | 23 => ⟨S100000, .f32⟩
  | 24 => ⟨S100000, .i1⟩
  | 25 => ⟨S_, .f32⟩
  | 26 => ⟨S_, .f32⟩
  | 27 => ⟨S100000, .f32⟩
  | 28 => ⟨S100000, .f32⟩
  | 29 => ⟨S_, .f32⟩
  | 30 => ⟨S100000, .f32⟩
  | 31 => ⟨S100000, .i1⟩
  | 32 => ⟨S100000, .f32⟩
  | 33 => ⟨S_, .f32⟩
  | 34 => ⟨S_, .f32⟩
  | 35 => ⟨S100000, .f32⟩
  | 36 => ⟨S100000, .f32⟩
  | 37 => ⟨S_, .i32⟩
  | 38 => ⟨S3300000, .i32⟩
  | 39 => ⟨S3300000, .i1⟩
  | 40 => ⟨S_, .i32⟩
  | 41 => ⟨S3300000, .i32⟩
  | 42 => ⟨S3300000, .i32⟩
  | 43 => ⟨S3300000, .i32⟩
  | 44 => ⟨S3300000x1, .i32⟩
  | 45 => ⟨S3300000, .f32⟩
  | 46 => ⟨S3300000, .f32⟩
  | 47 => ⟨S_, .i32⟩
  | 48 => ⟨S3300000, .i32⟩
  | 49 => ⟨S3300000, .i1⟩
  | 50 => ⟨S_, .i32⟩
  | 51 => ⟨S3300000, .i32⟩
  | 52 => ⟨S3300000, .i32⟩
  | 53 => ⟨S3300000, .i32⟩
  | 54 => ⟨S3300000x1, .i32⟩
  | 55 => ⟨S3300000, .f32⟩
  | 56 => ⟨S3300000, .f32⟩
  | 57 => ⟨S_, .i32⟩
  | 58 => ⟨S3300000, .i32⟩
  | 59 => ⟨S3300000, .i1⟩
  | 60 => ⟨S_, .i32⟩
  | 61 => ⟨S3300000, .i32⟩
  | 62 => ⟨S3300000, .i32⟩
  | 63 => ⟨S3300000, .i32⟩
  | 64 => ⟨S3300000x1, .i32⟩
  | 65 => ⟨S3300000x64, .f32⟩
  | 66 => ⟨S3300000x1, .f32⟩
  | 67 => ⟨S3300000x64, .f32⟩
  | 68 => ⟨S3300000x64, .f32⟩
  | 69 => ⟨S_, .f32⟩
  | 70 => ⟨S100000x64, .f32⟩
  | 71 => ⟨S3300000x1, .i32⟩
  | 72 => ⟨S100000x64, .f32⟩
  | 73 => ⟨S1x64, .f32⟩
  | 74 => ⟨S100000x64, .f32⟩
  | 75 => ⟨S100000x64, .f32⟩
  | 76 => ⟨S_, .f32⟩
  | 77 => ⟨S100000x64, .f32⟩
  | 78 => ⟨S100000x64, .f32⟩
  | 79 => ⟨S100000x16, .f32⟩
  | 80 => ⟨S_, .f32⟩
  | 81 => ⟨S100000, .f32⟩
  | 82 => ⟨S3300000x1, .i32⟩
  | 83 => ⟨S100000, .f32⟩
  | 84 => ⟨S_, .f32⟩
  | 85 => ⟨S100000, .f32⟩
  | 86 => ⟨S100000, .i1⟩
  | 87 => ⟨S_, .f32⟩
  | 88 => ⟨S_, .f32⟩
  | 89 => ⟨S100000, .f32⟩
  | 90 => ⟨S100000, .f32⟩
  | 91 => ⟨S_, .f32⟩
  | 92 => ⟨S100000, .f32⟩
  | 93 => ⟨S100000, .i1⟩
  | 94 => ⟨S100000, .f32⟩
  | 95 => ⟨S_, .f32⟩
  | 96 => ⟨S_, .f32⟩
  | 97 => ⟨S100000, .f32⟩
  | 98 => ⟨S100000, .f32⟩
  | 99 => ⟨S_, .i32⟩
  | 100 => ⟨S3300000, .i32⟩
  | 101 => ⟨S3300000, .i1⟩
  | 102 => ⟨S_, .i32⟩
  | 103 => ⟨S3300000, .i32⟩
  | 104 => ⟨S3300000, .i32⟩
  | 105 => ⟨S3300000, .i32⟩
  | 106 => ⟨S3300000x1, .i32⟩
  | 107 => ⟨S3300000, .f32⟩
  | 108 => ⟨S3300000, .f32⟩
  | 109 => ⟨S_, .i32⟩
  | 110 => ⟨S3300000, .i32⟩
  | 111 => ⟨S3300000, .i1⟩
  | 112 => ⟨S_, .i32⟩
  | 113 => ⟨S3300000, .i32⟩
  | 114 => ⟨S3300000, .i32⟩
  | 115 => ⟨S3300000, .i32⟩
  | 116 => ⟨S3300000x1, .i32⟩
  | 117 => ⟨S3300000, .f32⟩
  | 118 => ⟨S3300000, .f32⟩
  | 119 => ⟨S_, .i32⟩
  | 120 => ⟨S3300000, .i32⟩
  | 121 => ⟨S3300000, .i1⟩
  | 122 => ⟨S_, .i32⟩
  | 123 => ⟨S3300000, .i32⟩
  | 124 => ⟨S3300000, .i32⟩
  | 125 => ⟨S3300000, .i32⟩
  | 126 => ⟨S3300000x1, .i32⟩
  | 127 => ⟨S3300000x16, .f32⟩
  | _ => ⟨S100000x512, .f32⟩

abbrev hbmTy0_1 (i : Nat) : BufTy := match i % 128 with
  | 0 => ⟨S3300000x1, .f32⟩
  | 1 => ⟨S3300000x16, .f32⟩
  | 2 => ⟨S3300000x16, .f32⟩
  | 3 => ⟨S_, .f32⟩
  | 4 => ⟨S100000x16, .f32⟩
  | 5 => ⟨S3300000x1, .i32⟩
  | 6 => ⟨S100000x16, .f32⟩
  | 7 => ⟨S1x16, .f32⟩
  | 8 => ⟨S100000x16, .f32⟩
  | 9 => ⟨S100000x16, .f32⟩
  | 10 => ⟨S_, .f32⟩
  | 11 => ⟨S100000, .f32⟩
  | 12 => ⟨S_, .f32⟩
  | 13 => ⟨S100000, .f32⟩
  | 14 => ⟨S100000, .f32⟩
  | 15 => ⟨S100000x1, .f32⟩
  | 16 => ⟨S100000x16, .f32⟩
  | 17 => ⟨S100000x16, .f32⟩
  | 18 => ⟨S100000x16, .f32⟩
  | 19 => ⟨S_, .f32⟩
  | 20 => ⟨S100000, .f32⟩
  | 21 => ⟨S100000x1, .f32⟩
  | 22 => ⟨S100000x1, .f32⟩
  | 23 => ⟨S100000x16, .f32⟩
  | 24 => ⟨S100000x16, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_call1_v0 : Ref sig .tc := ⟨.hbm, 34, rfl⟩
abbrev main_call1_v1 : Ref sig .tc := ⟨.hbm, 35, rfl⟩
abbrev main_v19 : Ref sig .tc := ⟨.hbm, 36, rfl⟩
abbrev main_c : Ref sig .tc := ⟨.hbm, 37, rfl⟩
abbrev main_v20 : Ref sig .tc := ⟨.hbm, 38, rfl⟩
abbrev main_v21 : Ref sig .tc := ⟨.hbm, 39, rfl⟩
abbrev main_c_5 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_c_6 : Ref sig .tc := ⟨.hbm, 47, rfl⟩
abbrev main_v28 : Ref sig .tc := ⟨.hbm, 48, rfl⟩
abbrev main_v29 : Ref sig .tc := ⟨.hbm, 49, rfl⟩
abbrev main_c_7 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_c_8 : Ref sig .tc := ⟨.hbm, 57, rfl⟩
abbrev main_v36 : Ref sig .tc := ⟨.hbm, 58, rfl⟩
abbrev main_v37 : Ref sig .tc := ⟨.hbm, 59, rfl⟩
abbrev main_c_9 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_10 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_call2_cst : Ref sig .tc := ⟨.hbm, 76, rfl⟩
abbrev main_call2_v0 : Ref sig .tc := ⟨.hbm, 77, rfl⟩
abbrev main_v52 : Ref sig .tc := ⟨.hbm, 78, rfl⟩
abbrev main_v53 : Ref sig .tc := ⟨.hbm, 79, rfl⟩
abbrev main_cst_11 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_12 : Ref sig .tc := ⟨.hbm, 84, rfl⟩
abbrev main_v57 : Ref sig .tc := ⟨.hbm, 85, rfl⟩
abbrev main_v58 : Ref sig .tc := ⟨.hbm, 86, rfl⟩
abbrev main_cst_13 : Ref sig .tc := ⟨.hbm, 87, rfl⟩
abbrev main_call3_v0 : Ref sig .tc := ⟨.hbm, 88, rfl⟩
abbrev main_call3_v1 : Ref sig .tc := ⟨.hbm, 89, rfl⟩
abbrev main_v59 : Ref sig .tc := ⟨.hbm, 90, rfl⟩
abbrev main_cst_14 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_cst_15 : Ref sig .tc := ⟨.hbm, 95, rfl⟩
abbrev main_call4_v0 : Ref sig .tc := ⟨.hbm, 96, rfl⟩
abbrev main_call4_v1 : Ref sig .tc := ⟨.hbm, 97, rfl⟩
abbrev main_v63 : Ref sig .tc := ⟨.hbm, 98, rfl⟩
abbrev main_c_16 : Ref sig .tc := ⟨.hbm, 99, rfl⟩
abbrev main_v64 : Ref sig .tc := ⟨.hbm, 100, rfl⟩
abbrev main_v65 : Ref sig .tc := ⟨.hbm, 101, rfl⟩
abbrev main_c_17 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_c_18 : Ref sig .tc := ⟨.hbm, 109, rfl⟩
abbrev main_v72 : Ref sig .tc := ⟨.hbm, 110, rfl⟩
abbrev main_v73 : Ref sig .tc := ⟨.hbm, 111, rfl⟩
abbrev main_c_19 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_c_20 : Ref sig .tc := ⟨.hbm, 119, rfl⟩
abbrev main_v80 : Ref sig .tc := ⟨.hbm, 120, rfl⟩
abbrev main_v81 : Ref sig .tc := ⟨.hbm, 121, rfl⟩
abbrev main_c_21 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_cst_22 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_call5_cst : Ref sig .tc := ⟨.hbm, 138, rfl⟩
abbrev main_call5_v0 : Ref sig .tc := ⟨.hbm, 139, rfl⟩
abbrev main_call5_cst_0 : Ref sig .tc := ⟨.hbm, 140, rfl⟩
abbrev main_call5_v1 : Ref sig .tc := ⟨.hbm, 141, rfl⟩
abbrev main_call5_v2 : Ref sig .tc := ⟨.hbm, 142, rfl⟩
abbrev main_call5_v3 : Ref sig .tc := ⟨.hbm, 143, rfl⟩
abbrev main_call5_v4 : Ref sig .tc := ⟨.hbm, 144, rfl⟩
abbrev main_call5_v5 : Ref sig .tc := ⟨.hbm, 145, rfl⟩
abbrev main_call5_v6 : Ref sig .tc := ⟨.hbm, 146, rfl⟩
abbrev main_call5_cst_1 : Ref sig .tc := ⟨.hbm, 147, rfl⟩
abbrev main_call5_v7 : Ref sig .tc := ⟨.hbm, 148, rfl⟩
abbrev main_call5_v8 : Ref sig .tc := ⟨.hbm, 149, rfl⟩
abbrev main_call5_v9 : Ref sig .tc := ⟨.hbm, 150, rfl⟩
abbrev main_call5_v10 : Ref sig .tc := ⟨.hbm, 151, rfl⟩
abbrev main_v96 : Ref sig .tc := ⟨.hbm, 152, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S3300000 : S_.BroadcastsInDim S3300000 (![] : Fin 0 → Fin S3300000.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  reducesTo_S100000x16_S100000_d1 : S100000x16.ReducesTo [1] S100000
  h_S_ : 0 < S_.numel
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  dot_S100000x512_S512x64_S100000x64_1_0_0_1_n_n_wf : DotDims.WF S100000x512 S512x64 S100000x64 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S100000x64_S64x16_S100000x16_1_0_0_1_n_n_wf : DotDims.WF S100000x64 S64x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1

variable [Facts₀]

def dot_S100000x512_S512x64_S100000x64_1_0_0_1_n_n : DotDims S100000x512 S512x64 S100000x64 where
  lhsContracting := [1]
  rhsContracting := [0]
  lhsNonContracting := [0]
  rhsNonContracting := [1]
  lhsBatch := []
  rhsBatch := []
  wf := dot_S100000x512_S512x64_S100000x64_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S100000x64_S64x16_S100000x16_1_0_0_1_n_n : DotDims S100000x64 S64x16 S100000x16 where
  lhsContracting := [1]
  rhsContracting := [0]
  lhsNonContracting := [0]
  rhsNonContracting := [1]
  lhsBatch := []
  rhsBatch := []
  wf := dot_S100000x64_S64x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf

class Facts : Prop extends Facts₀ where

variable [Facts]
-- ==== Proof.KernelRun.lean ====
/-
  The idealized kernel program's run, with its result named. The program is three kernel regions among stretches of host
  operations; at its end every unscoped buffer of the core holds the contents the last boundary gives it, and the
  result buffer is the third region's output array: what that region's write-backs leave of it. The argument arrays end
  as launched.
-/
import proofs.«119410_j53472342835547_2_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the program terminates, nothing faulting, with the result buffer at the third
    region's output array after its run (entered from the contents `V9`) and the argument arrays as launched. -/
theorem run_result : θ_run defs (onTc (τ := τ) (main (F := F))) ⟨m, fun _ => 0, ρ⟩ (fun r => ∀ c : Dev nD,
      r.2.mem ((c.tc : Thread nD τ).loc main_v65) = (dat2 (V9 m ρ) c).arrAt 2 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨(h c _ (mem_uc main_v65 (by decide))).trans (W10_arr m ρ c 2),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c)⟩)

end Cert.KernelIdeal.Hand

end
-- ==== Proof.Spec.lean ====
/-
  The three dense stages of the graph network as functions of whole arrays, entry by entry, over the extended reals:
  a product of a [100000, 512] array with a [512, 64] array; the product of the rectified, biased [100000, 64] array with a
  [64, 16] array; and the row-wise logarithm of the softmax of a biased [100000, 16] array.
-/
import Idealize.ShloMosaic.PureOps.Ideal
import Idealize.ShloMosaic.Lib.ValueIdx

noncomputable section

open scoped BigOperators

namespace Cert.Spec

open Idealize.ShloMosaic Idealize.ShloMosaic.ValueIdx

/-- Entry (p, q) of x · w: the sum over k of x[p, k] · w[k, q]. -/
def dense1 (x : (⟨2, ![100000, 512]⟩ : Shape).Idx → EReal) (w : (⟨2, ![512, 64]⟩ : Shape).Idx → EReal)
    (p : Fin 100000) (q : Fin 64) : EReal :=
  ∑ k : Fin 512, x (ix2 p k) * w (ix2 k q)

/-- Entry (p, q) of max(a + b, z) · w, the bias b a single row and z the rectifier's floor:
    the sum over k of max(a[p, k] + b[0, k], z) · w[k, q]. -/
def dense2 (z : EReal) (a : (⟨2, ![100000, 64]⟩ : Shape).Idx → EReal) (b : (⟨2, ![1, 64]⟩ : Shape).Idx → EReal)
    (w : (⟨2, ![64, 16]⟩ : Shape).Idx → EReal) (p : Fin 100000) (q : Fin 16) : EReal :=
  ∑ k : Fin 64, max (a (ix2 p k) + b (ix2 (0 : Fin 1) k)) z * w (ix2 k q)

/-- Row p of a + b, the bias b a single row. -/
def biased (a : (⟨2, ![100000, 16]⟩ : Shape).Idx → EReal) (b : (⟨2, ![1, 16]⟩ : Shape).Idx → EReal)
    (p : Fin 100000) (j : Fin 16) : EReal :=
  a (ix2 p j) + b (ix2 (0 : Fin 1) j)

/-- The largest entry of row p of a + b, folded from the floor `lo`. -/
def rowMax (lo : EReal) (a : (⟨2, ![100000, 16]⟩ : Shape).Idx → EReal) (b : (⟨2, ![1, 16]⟩ : Shape).Idx → EReal)
    (p : Fin 100000) : EReal :=
  (Finset.univ : Finset (Fin 16)).fold max lo (biased a b p)

/-- Entry (p, q) of the logarithm of the softmax of the rows of a + b: with m the row's largest entry,
    (x[q] - m) - log (s0 + Σ_j exp (x[j] - m)), s0 the sum's starting value. -/
def logSoftmax (lo s0 : EReal) (a : (⟨2, ![100000, 16]⟩ : Shape).Idx → EReal) (b : (⟨2, ![1, 16]⟩ : Shape).Idx → EReal)
    (p : Fin 100000) (q : Fin 16) : EReal :=
  (biased a b p q - rowMax lo a b p)
    - Ideal.log (s0 + ∑ j : Fin 16, Ideal.exp (biased a b p j - rowMax lo a b p))

end Cert.Spec

end
-- ==== Proof.LibPlain.lean ====
/-
  General facts, at the ideal values, about the plain two-dimensional matrix product and about reductions along the
  rows of a two-dimensional array, stated at indices built from their two coordinates; and two regroupings of a finite
  sum in a commutative monoid (by tiles of equal length; against a mask that keeps one index).
-/
import Idealize.ShloMosaic.Lib.ValueIdx
import Idealize.ShloMosaic.PureOps.Ideal.Laws
import Idealize.ShloMosaic.Lib.Pipeline.Value

noncomputable section

namespace Idealize.ShloMosaic

open ValueIdx

/-- In the plain product `[M,K] × [K,N]` the left operand is read at (row, k) -/
theorem plain_lhsIdx {M K N : Nat} (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 p q) _).trans hk

/-- and the right operand at (k, column). -/
theorem plain_rhsIdx {M K N : Nat} (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl (ix2 p q) _).trans hk
  | ⟨1, _⟩ => rfl

/-- The matrix unit's product into a zero accumulator, at (p, q): the sum over k of L(p,k) · R(k,q). -/
theorem Ideal.matmul_plain_zero_apply {M K N : Nat} {φ₁ φ₂ : FTy} (prec : Option ContractPrecision)
    (L : FVec Ideal ⟨2, ![M, K]⟩ φ₁) (R : FVec Ideal ⟨2, ![K, N]⟩ φ₂) (p : Fin M) (q : Fin N) :
    FloatOps.matmul (DotDims.plain M K N) prec L R (constant ⟨2, ![M, N]⟩ .f32 0x00000000#32) (ix2 p q)
      = ∑ k : Fin K, L (ix2 p k) * R (ix2 k q) := by
  rw [Ideal.matmul_constant_zero_apply, ← Equiv.sum_comp (contrEquiv1 (DotDims.plain M K N) K rfl rfl).symm]
  exact Finset.sum_congr rfl fun k _ => by rw [plain_lhsIdx, plain_rhsIdx]

/-- The host's product, at (p, q): the same sum. -/
theorem Ideal.dotGeneral_plain_apply {M K N : Nat} {φ₁ φ₂ : FTy} (prec : Option ContractPrecision) (sched : HostSchedule)
    (L : FVec Ideal ⟨2, ![M, K]⟩ φ₁) (R : FVec Ideal ⟨2, ![K, N]⟩ φ₂) (p : Fin M) (q : Fin N) :
    FloatOps.dotGeneral (DotDims.plain M K N) prec sched L R (ix2 p q)
      = ∑ k : Fin K, L (ix2 p k) * R (ix2 k q) := by
  rw [Ideal.dotGeneral_apply, ← Equiv.sum_comp (contrEquiv1 (DotDims.plain M K N) K rfl rfl).symm]
  exact Finset.sum_congr rfl fun k _ => by rw [plain_lhsIdx, plain_rhsIdx]

/-- Reducing the second axis of an `[M,N]` array: the source index over row `p` with coordinate `q` inserted is (p, q). -/
theorem lift_rows {M N : Nat} (h : (⟨2, ![M, N]⟩ : Shape).Reduces [1] ⟨1, ![M]⟩) (p : Fin M) (q : Fin N) :
    h.lift (ix1 p) q = ix2 p q := by
  funext a
  apply Fin.ext
  match a with
  | ⟨0, _⟩ => rfl
  | ⟨1, _⟩ => rfl

/-- A lane sum along the rows, at row `p`: the sum over the row. -/
theorem Ideal.multiReduction_add_rows {M N : Nat} {φ : FTy} (src : FVec Ideal ⟨2, ![M, N]⟩ φ) (acc : BitVec φ.bits)
    (h : (⟨2, ![M, N]⟩ : Shape).Reduces [1] ⟨1, ![M]⟩) (hφ : FKind.Formats φ) (hacc : acc = FKind.add.neutral φ hφ) (p : Fin M) :
    multiReduction .add [1] ⟨1, ![M]⟩ src acc h hφ hacc (ix1 p) = ∑ q : Fin N, src (ix2 p q) := by
  rw [Ideal.multiReduction_add_single]
  exact Finset.sum_congr rfl fun q _ => congrArg src (lift_rows h p q)

/-- A lane maximum along the rows, at row `p`: the fold of `max` over the row from the accumulator's value. -/
theorem Ideal.multiReduction_maximumf_rows {M N : Nat} {φ : FTy} (src : FVec Ideal ⟨2, ![M, N]⟩ φ) (acc : BitVec φ.bits)
    (h : (⟨2, ![M, N]⟩ : Shape).Reduces [1] ⟨1, ![M]⟩) (hφ : FKind.Formats φ) (hacc : acc = FKind.maximumf.neutral φ hφ) (p : Fin M) :
    multiReduction .maximumf [1] ⟨1, ![M]⟩ src acc h hφ hacc (ix1 p)
      = (Finset.univ : Finset (Fin N)).fold max (FloatOps.ofBits φ acc) (fun q => src (ix2 p q)) := by
  rw [Ideal.multiReduction_maximumf_single]
  exact congrArg (fun f => Finset.fold max (FloatOps.ofBits φ acc) f Finset.univ) (funext fun q => congrArg src (lift_rows h p q) : src ∘ h.lift (ix1 p) = fun q => src (ix2 p q))

/-- The same two facts with the accumulator's word spelt as a kernel's text spells it (the -inf word; the zero word), the
    format's proof the literal one. -/
theorem Ideal.multiReduction_maximumf_rows_f32 {M N : Nat} (src : FVec Ideal ⟨2, ![M, N]⟩ .f32) (h : (⟨2, ![M, N]⟩ : Shape).Reduces [1] ⟨1, ![M]⟩)
    (hacc : (0xFF800000#32 : BitVec 32) = 0xFF800000#32) (p : Fin M) :
    multiReduction .maximumf [1] ⟨1, ![M]⟩ src 0xFF800000#32 h (.inl rfl) hacc (ix1 p)
      = (Finset.univ : Finset (Fin N)).fold max (Ideal.ofBits .f32 0xFF800000#32) (fun q => src (ix2 p q)) :=
  Ideal.multiReduction_maximumf_rows src _ h (.inl rfl) hacc p
theorem Ideal.multiReduction_add_rows_f32 {M N : Nat} (src : FVec Ideal ⟨2, ![M, N]⟩ .f32) (h : (⟨2, ![M, N]⟩ : Shape).Reduces [1] ⟨1, ![M]⟩)
    (hacc : (0x00000000#32 : BitVec 32) = 0x00000000#32) (p : Fin M) :
    multiReduction .add [1] ⟨1, ![M]⟩ src 0x00000000#32 h (.inl rfl) hacc (ix1 p) = ∑ q : Fin N, src (ix2 p q) :=
  Ideal.multiReduction_add_rows src _ h (.inl rfl) hacc p

/-- The vector exponential at an index. -/
theorem exp_apply_ideal {s : Shape} {φ : FTy} (a : FVec Ideal s φ) (i : s.Idx) : Idealize.ShloMosaic.exp a i = Ideal.exp (a i) := rfl

/-- A rank-1 vector recast as a column, at (p, q): the vector at p. -/
theorem shapeCast_col {α : Type} {M : Nat} (x : (⟨1, ![M]⟩ : Shape).Idx → α) (h : (⟨1, ![M]⟩ : Shape).ShapeCasts ⟨2, ![M, 1]⟩)
    (p : Fin M) (q : Fin 1) : shapeCast ⟨2, ![M, 1]⟩ x h (ix2 p q) = x (ix1 p) := by
  refine shapeCast_apply x h (ix2 p q) (ix1 p) ?_
  rw [Shape.rowMajor_val_one, Shape.rowMajor_val_two]
  show p.val = p.val * 1 + q.val
  omega

/-- A column broadcast along the rows, at (p, q): the column at p. -/
theorem broadcastTo_col {α : Type} {M N : Nat} (x : (⟨2, ![M, 1]⟩ : Shape).Idx → α) (h : (⟨2, ![M, 1]⟩ : Shape).Broadcasts ⟨2, ![M, N]⟩)
    (p : Fin M) (q : Fin N) : broadcastTo ⟨2, ![M, N]⟩ x h (ix2 p q) = x (ix2 p 0) := by
  refine broadcastTo_apply x h (ix2 p q) (ix2 p 0) fun a => ?_
  match a with
  | ⟨0, _⟩ =>
    show p.val = if M = 1 then 0 else p.val
    split
    · have := p.isLt; omega
    · rfl
  | ⟨1, _⟩ =>
    show (0 : Fin 1).val = if (1 : Nat) = 1 then 0 else q.val
    rw [if_pos rfl]; rfl

namespace Layer
/-- Two linear maps with the clamp `max · z` before each, on one row. -/
def net {a b c : Nat} (z : EReal) (y : Fin a → EReal) (W1 : Fin a → Fin b → EReal) (W2 : Fin b → Fin c → EReal) (q : Fin c) : EReal :=
  ∑ k : Fin b, max (∑ j : Fin a, max (y j) z * W1 j k) z * W2 k q
/-- The softmax of one row, with the maximum taken from `ninf`. -/
def smax {c : Nat} (ninf : EReal) (l : Fin c → EReal) (q : Fin c) : EReal :=
  Ideal.div (Ideal.exp (l q - max ninf (Finset.univ.fold max ninf l)))
    (∑ q' : Fin c, Ideal.exp (l q' - max ninf (Finset.univ.fold max ninf l)))
/-- Both depend on their arguments only through their values. -/
theorem net_congr {a b c : Nat} (z : EReal) {y y' : Fin a → EReal} {W1 W1' : Fin a → Fin b → EReal} {W2 W2' : Fin b → Fin c → EReal}
    (hy : ∀ j, y j = y' j) (h1 : ∀ j k, W1 j k = W1' j k) (h2 : ∀ k q, W2 k q = W2' k q) (q : Fin c) :
    net z y W1 W2 q = net z y' W1' W2' q := by
  rw [funext hy, funext fun j => funext (h1 j), funext fun k => funext (h2 k)]
theorem smax_net_congr {a b c : Nat} (z ninf : EReal) {y y' : Fin a → EReal} {W1 W1' : Fin a → Fin b → EReal} {W2 W2' : Fin b → Fin c → EReal}
    (hy : ∀ j, y j = y' j) (h1 : ∀ j k, W1 j k = W1' j k) (h2 : ∀ k q, W2 k q = W2' k q) (q : Fin c) :
    smax ninf (net z y W1 W2) q = smax ninf (net z y' W1' W2') q := by
  rw [funext hy, funext fun j => funext (h1 j), funext fun k => funext (h2 k)]
end Layer

/-- A sum over `T · K` consecutive indices is the sum over the `T` tiles of the sums over each tile's `K` indices. -/
theorem sum_tiles {α : Type*} [AddCommMonoid α] (T K : Nat) (f : Fin (T * K) → α) :
    ∑ j, f j = ∑ t : Fin T, ∑ k : Fin K, f (finProdFinEquiv (t, k)) :=
  (Fintype.sum_equiv finProdFinEquiv (fun x => f (finProdFinEquiv x)) f (fun _ => rfl)).symm.trans (Fintype.sum_prod_type _)

end Idealize.ShloMosaic

end
-- ==== Proof.LibWhole.lean ====
/-
  General facts about a buffer read through the rectangle that covers its whole shape (zero offsets, the shape's own
  extents): a load through it reads the buffer's contents, and one store through it leaves exactly the stored payload.
-/
import Idealize.ShloMosaic.Lib.Pipeline.FrameBody
import Idealize.ShloMosaic.Lib.Pipeline.Value

namespace Idealize.ShloMosaic.View

variable {Val : EltTy → Type} {S : Shape} {e : EltTy}

/-- The two-axis offset vector `![0, 0]` is the zero function. -/
theorem zero_offsets2 : (![0, 0] : Fin 2 → Nat) = fun _ => 0 := by
  funext a; fin_cases a <;> rfl

/-- A load through the whole-shape rectangle at zero offsets reads the contents. -/
theorem readAt_unit_zero {sig : RefSig} {κ : Kind} {sp : Space} (v : View sig κ sp S e) (f : v.ty.Contents Val)
    {off : Fin S.rank → Nat} (h : off = fun _ => 0) (inb : ∀ a, off a + S.size a ≤ S.size a) :
    v.readAt Val (Rect.unit off S.size inb).toLoadRect f = v.read Val f := by
  rw [readAt_eq_ld, ld_unit_zero h]

/-- One store through the whole-shape rectangle at zero offsets leaves its payload, whatever was there. -/
theorem read_writes_unit_zero [∀ e, Nonempty (Val e)] {sig : RefSig} {κ : Kind} {sp : Space} (v : View sig κ sp S e)
    (f : v.ty.Contents Val) {off : Fin S.rank → Nat} (h : off = fun _ => 0) (inb : ∀ a, off a + S.size a ≤ S.size a)
    (w : S.Idx → Val e) :
    v.read Val (v.writes Val f [(⟨Rect.unit off S.size inb, w⟩ : Piece Val S e)]) = w := by
  subst h
  rw [read_writes_eq_canon _ _ _ (fun y => ⟨_, List.mem_singleton_self _, by
    show y ∈ (Rect.whole S).set; rw [Rect.set_whole]; exact Finset.mem_univ y⟩), canon_unit_zero rfl]

end Idealize.ShloMosaic.View
-- ==== Proof.Reg0.lean ====
/-
  The first dense stage of the graph network, read off the pipelined kernel: after the run over its twenty row blocks
  the output array holds, entry by entry, the product of the [100000, 512] argument with the [512, 64] weight — the sum
  over the contraction axis of the products of their entries — over the extended reals.
-/
import proofs.«119410_j53472342835547_2_alg».proof.Proof.Gen.KernelIdeal.Frame
import proofs.«119410_j53472342835547_2_alg».proof.Proof.Spec
import proofs.«119410_j53472342835547_2_alg».proof.Proof.LibPlain
import proofs.«119410_j53472342835547_2_alg».proof.Proof.LibWhole
import Idealize.ShloMosaic.Lib.Pipeline.Value
import Idealize.ShloMosaic.Lib.ValueIdx

noncomputable section
namespace Cert.KernelIdeal.Hand
open Cert.KernelIdeal Cert.KernelIdeal.Gen Idealize.ShloMosaic Idealize.ShloMosaic.TcCoe Idealize.ShloMosaic.ValueIdx Idealize.SL.Sem
open Idealize.ShloMosaic.Pipeline (Dat Cfg Window)

namespace Dense1

/-- The kernel's dimension numbers are those of the plain product of a [5000, 512] block with the [512, 64] weight. -/
theorem dims_eq_plain : dot_S5000x512_S512x64_S5000x64_1_0_0_1_n_n = DotDims.plain 5000 512 64 := rfl

/-- The body's arithmetic at entry (p, q) of a block: the sum over k of x[p, k] · w[k, q] (the narrowing of both operands
    is the identity over the extended reals, and the accumulator starts at zero). -/
theorem pay_apply (x : Vec Ideal S5000x512 .f32) (w : Vec Ideal S512x64 .f32) (p : Fin 5000) (q : Fin 64) :
    k0_pay1 (F := Ideal) x w (ix2 p q) = ∑ k : Fin 512, x (ix2 p k) * w (ix2 k q) := by
  unfold k0_pay1
  simp only [matmul]
  rw [dims_eq_plain]
  exact Ideal.matmul_plain_zero_apply none (truncf .bf16 x bitsLt_bf16_f32) (truncf .bf16 w bitsLt_bf16_f32) p q

/-- The printed index maps, decided over the grid: the argument's block moves with the output's along the rows and sits
    at column block 0; the weight's block is the whole weight; the output's block at point t is row block t. -/
theorem index_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) = t.val :=
  (by decide +kernel : ∀ t : Fin grid0.N, _)

variable (V : (c : Dev nD) → (b : Ref sig .tc) → Buf (Elt Ideal) ((c : Thread nD τ).loc b))

/-- The whole-array function the output ends holding: entry (i₀, i₁) of the product of the two arrays the region
    finds in its arguments. -/
abbrev prod (c : Dev nD) : S100000x64.Idx → EReal :=
  fun i => Cert.Spec.dense1 (V c main_arg0) (V c main_arg3) ⟨(i 0).val, idx2_lt0 i⟩ ⟨(i 1).val, idx2_lt1 i⟩

/-- What point t writes back is block t of the product: the body multiplies row block t of the argument, read whole
    along the contraction axis, with the whole weight. -/
theorem flushed_eq (c : Dev nD) (t : Fin cfg0.N) :
    (dat0 (F := Ideal) V c).flushed 2 t = ((cfg0.win 2).blk t).view.read (Elt Ideal) (prod V c) := by
  show (cfg0.win 2).cut (grid0.coords t) ((dat0 (F := Ideal) V c).after 2 t) = _
  rw [after0_2]
  unfold out0_2
  rw [View.canon_unit_zero View.zero_offsets2]
  simp only [View.ld_unit_zero (S := S5000x512) View.zero_offsets2, View.ld_unit_zero (S := S512x64) View.zero_offsets2]
  obtain ⟨e0, e1, e2, e3, e4, e5⟩ := index_facts t
  refine funext fun (j : S5000x64.Idx) => ?_
  obtain ⟨p, q, rfl⟩ : ∃ (p : Fin 5000) (q : Fin 64), j = ix2 p q := ⟨j 0, j 1, eq_ix2 j⟩
  show k0_pay1 (F := Ideal) (iblk0 V c 0 t) (iblk0 V c 1 t) (ix2 p q) = prod V c (((cfg0.win 2).blk t).view.emb (ix2 p q))
  rw [pay_apply]
  show _ = Cert.Spec.dense1 (V c main_arg0) (V c main_arg3) _ _
  unfold Cert.Spec.dense1
  refine Finset.sum_congr rfl fun k _ => ?_
  have hx : iblk0 V c 0 t (ix2 p k)
      = V c main_arg0 (ix2 ⟨(((cfg0.win 2).blk t).view.emb (ix2 p q) 0).val, idx2_lt0 _⟩ k) := by
    show V c main_arg0 (((cfg0.win 0).blk t).view.emb (ix2 p k)) = _
    refine congrArg (V c main_arg0) (funext fun a => Fin.ext ?_)
    match a with
    | ⟨0, _⟩ =>
      show win0_0.index t (0 : Fin 2) * 5000 + 1 * p.val = win0_2.index t (0 : Fin 2) * 5000 + 1 * p.val
      omega
    | ⟨1, _⟩ =>
      show win0_0.index t (1 : Fin 2) * 512 + 1 * k.val = k.val
      omega
  have hw : iblk0 V c 1 t (ix2 k q)
      = V c main_arg3 (ix2 k ⟨(((cfg0.win 2).blk t).view.emb (ix2 p q) 1).val, idx2_lt1 _⟩) := by
    show V c main_arg3 (((cfg0.win 1).blk t).view.emb (ix2 k q)) = _
    refine congrArg (V c main_arg3) (funext fun a => Fin.ext ?_)
    match a with
    | ⟨0, _⟩ =>
      show win0_1.index t (0 : Fin 2) * 512 + 1 * k.val = k.val
      omega
    | ⟨1, _⟩ =>
      show win0_1.index t (1 : Fin 2) * 64 + 1 * q.val = win0_2.index t (1 : Fin 2) * 64 + 1 * q.val
      omega
  rw [hx, hw]

/-- An index of the output array is in point t's block iff each coordinate is in the block's range on its axis. -/
theorem mem_blk (t : Fin cfg0.N) (i : S100000x64.Idx) :
    i ∈ ((cfg0.win 2).blk t).view.set ↔ ∀ a : Fin 2, win0_2.index t a * S5000x64.size a ≤ (i a).val
      ∧ (i a).val < win0_2.index t a * S5000x64.size a + S5000x64.size a := by
  show i ∈ ((View.whole main_v35).slice (win0_2.rect t)).set ↔ _
  rw [View.set_slice_whole, Rect.mem_set_unit]
  exact Iff.rfl

/-- The twenty row blocks fill the array: row r lies in the block of point r / 5000, which writes its block back. -/
theorem cover (i : S100000x64.Idx) :
    ∃ t : Fin cfg0.N, (cfg0.win 2).flush t = true ∧ i ∈ ((cfg0.win 2).blk t).view.set := by
  have hi0 : (i 0).val < 100000 := idx2_lt0 i
  have hi1 : (i 1).val < 64 := idx2_lt1 i
  have hN : grid0.N = 20 := N_0
  have ht : (i 0).val / 5000 < cfg0.N := by show (i 0).val / 5000 < grid0.N; omega
  refine ⟨⟨(i 0).val / 5000, ht⟩, flush0_2 _, ?_⟩
  rw [mem_blk]
  obtain ⟨-, -, -, -, e4, e5⟩ := index_facts ⟨(i 0).val / 5000, ht⟩
  intro a
  match a with
  | ⟨0, _⟩ =>
    show win0_2.index ⟨(i 0).val / 5000, ht⟩ (0 : Fin 2) * 5000 ≤ (i 0).val
      ∧ (i 0).val < win0_2.index ⟨(i 0).val / 5000, ht⟩ (0 : Fin 2) * 5000 + 5000
    rw [e5]
    show (i 0).val / 5000 * 5000 ≤ (i 0).val ∧ (i 0).val < (i 0).val / 5000 * 5000 + 5000
    omega
  | ⟨1, _⟩ =>
    show win0_2.index ⟨(i 0).val / 5000, ht⟩ (1 : Fin 2) * 64 ≤ (i 1).val
      ∧ (i 1).val < win0_2.index ⟨(i 0).val / 5000, ht⟩ (1 : Fin 2) * 64 + 64
    rw [e4]
    omega

end Dense1

variable (V : (c : Dev nD) → (b : Ref sig .tc) → Buf (Elt Ideal) ((c : Thread nD τ).loc b))

/-- The output array of the first dense stage after the run: entry (i₀, i₁) is the sum over k of x[i₀, k] · w[k, i₁],
    x and w the arrays the region finds in its two arguments. -/
theorem reg0_value (c : Dev nD) :
    (dat0 (F := Ideal) V c).arrAt 2 cfg0.N
      = fun i : S100000x64.Idx => Cert.Spec.dense1 (V c main_arg0) (V c main_arg3) ⟨(i 0).val, idx2_lt0 i⟩ ⟨(i 1).val, idx2_lt1 i⟩ :=
  (dat0 (F := Ideal) V c).arrAt_eq_of_cover 2 (Dense1.prod V c) (fun t _ => Dense1.flushed_eq V c t) Dense1.cover

end Cert.KernelIdeal.Hand
end
-- ==== Proof.Reg1.lean ====
/-
  The second dense stage: what the pipelined kernel leaves in its output array, entry by entry. Each grid point
  computes, on a block of 5000 rows, the product of the rectified, biased rows with the [64, 16] weights; the blocks of
  the twenty points tile the 100000 rows, so the array ends as one function of the three input arrays.
-/
import proofs.«119410_j53472342835547_2_alg».proof.Proof.Gen.KernelIdeal.Frame
import proofs.«119410_j53472342835547_2_alg».proof.Proof.Spec
import proofs.«119410_j53472342835547_2_alg».proof.Proof.LibPlain
import Idealize.ShloMosaic.Lib.Pipeline.Value
import Idealize.ShloMosaic.Lib.ValueIdx
import Idealize.ShloMosaic.Lib.ValueLayout

noncomputable section
namespace Cert.KernelIdeal.Hand
open Cert.KernelIdeal Cert.KernelIdeal.Gen Idealize.ShloMosaic Idealize.ShloMosaic.TcCoe Idealize.ShloMosaic.ValueIdx Idealize.SL.Sem
open Idealize.ShloMosaic.Pipeline (Dat Cfg Window)

namespace Reg1

/-- In the kernel's product [5000, 64] × [64, 16] the left operand is read at (row, k) -/
theorem dot_lhsIdx (p : Fin 5000) (q : Fin 16) (k : Fin 64) :
    dot_S5000x64_S64x16_S5000x16_1_0_0_1_n_n.lhsIdx (ix2 p q)
      ((contrEquiv1 dot_S5000x64_S64x16_S5000x16_1_0_0_1_n_n 64 rfl rfl).symm k) = ix2 p k := by
  have hk := contrEquiv1_symm_val dot_S5000x64_S64x16_S5000x16_1_0_0_1_n_n 64 rfl rfl k
  funext a
  apply Fin.ext
  match a with
  | ⟨0, _⟩ => rfl
  | ⟨1, _⟩ => exact (dot_S5000x64_S64x16_S5000x16_1_0_0_1_n_n.lhsIdx_val_of_single rfl (ix2 p q) _).trans hk

/-- and the right operand at (k, column). -/
theorem dot_rhsIdx (p : Fin 5000) (q : Fin 16) (k : Fin 64) :
    dot_S5000x64_S64x16_S5000x16_1_0_0_1_n_n.rhsIdx (ix2 p q)
      ((contrEquiv1 dot_S5000x64_S64x16_S5000x16_1_0_0_1_n_n 64 rfl rfl).symm k) = ix2 k q := by
  have hk := contrEquiv1_symm_val dot_S5000x64_S64x16_S5000x16_1_0_0_1_n_n 64 rfl rfl k
  funext a
  apply Fin.ext
  match a with
  | ⟨0, _⟩ => exact (dot_S5000x64_S64x16_S5000x16_1_0_0_1_n_n.rhsIdx_val_of_single rfl (ix2 p q) _).trans hk
  | ⟨1, _⟩ => rfl

/-- The matrix unit's product into a zero accumulator, at (p, q): the sum over k of L(p,k) · R(k,q). -/
theorem matmul_zero_apply {φ₁ φ₂ : FTy} (prec : Option ContractPrecision)
    (L : FVec Ideal S5000x64 φ₁) (R : FVec Ideal S64x16 φ₂) (p : Fin 5000) (q : Fin 16) :
    FloatOps.matmul dot_S5000x64_S64x16_S5000x16_1_0_0_1_n_n prec L R (constant S5000x16 .f32 0x00000000#32) (ix2 p q)
      = ∑ k : Fin 64, L (ix2 p k) * R (ix2 k q) := by
  rw [Ideal.matmul_constant_zero_apply,
    ← Equiv.sum_comp (contrEquiv1 dot_S5000x64_S64x16_S5000x16_1_0_0_1_n_n 64 rfl rfl).symm]
  exact Finset.sum_congr rfl fun k _ => by rw [dot_lhsIdx, dot_rhsIdx]

/-- The body's arithmetic at (p, q): the sum over k of max(x[p,k] + b[0,k], 0) · w[k,q]. -/
theorem pay_apply (x : Vec Ideal S5000x64 .f32) (b : Vec Ideal S1x64 .f32) (w : Vec Ideal S64x16 .f32)
    (p : Fin 5000) (q : Fin 16) :
    k1_pay1 x b w (ix2 p q)
      = ∑ k : Fin 64, max (x (ix2 p k) + b (ix2 (0 : Fin 1) k)) (Ideal.ofBits .f32 0x00000000#32) * w (ix2 k q) := by
  unfold k1_pay1
  show FloatOps.matmul dot_S5000x64_S64x16_S5000x16_1_0_0_1_n_n none _ _ (constant S5000x16 .f32 0x00000000#32) (ix2 p q) = _
  rw [matmul_zero_apply]
  refine Finset.sum_congr rfl fun k _ => ?_
  rw [truncf_apply, truncf_apply, maximumf_apply, addf_apply, shapeCast_self, shapeCast_self,
    broadcastTo_1b_ab_apply, broadcast_apply]
  rfl

variable (V : (c : Dev nD) → (b : Ref sig .tc) → Buf (Elt Ideal) ((c : Thread nD τ).loc b))

/-- The two-axis offset vector of a whole-buffer access is zero. -/
theorem zero_off : (![0, 0] : Fin 2 → Nat) = fun _ => 0 := funext fun a => by fin_cases a <;> rfl

/-- The output array as one function of the three input arrays. -/
def whole (c : Dev nD) : S100000x16.Idx → Elt Ideal .f32 := fun i =>
  Cert.Spec.dense2 (Ideal.ofBits .f32 0x00000000#32) (V c main_v48) (V c main_v49) (V c main_arg5)
    ⟨(i 0).val, idx2_lt0 i⟩ ⟨(i 1).val, idx2_lt1 i⟩

/-- The printed index maps, decided over the grid: the row blocks of the first input and of the output are the point's
    own; the bias and the weights are always their one block. -/
theorem index_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point t writes back is block t of the whole-array function. -/
theorem flushed_eq (c : Dev nD) (t : Fin cfg1.N) :
    (dat1 (F := Ideal) V c).flushed 3 t = ((cfg1.win 3).blk t).view.read (Elt Ideal) (whole V c) := by
  show (cfg1.win 3).cut (grid1.coords t) ((dat1 (F := Ideal) V c).after 3 t) = _
  rw [after1_3]
  unfold out1_3
  rw [View.canon_unit_zero zero_off]
  simp only [View.ld_unit_zero (S := S5000x64) zero_off, View.ld_unit_zero (S := S1x64) zero_off,
    View.ld_unit_zero (S := S64x16) zero_off]
  obtain ⟨e00, e01, e10, e11, e20, e21, e30, e31⟩ := index_facts t
  funext j
  obtain ⟨p, q, rfl⟩ : ∃ (p : Fin 5000) (q : Fin 16), j = ix2 p q := ⟨j 0, j 1, eq_ix2 j⟩
  have ht : t.val < 20 := lt_of_lt_of_eq t.isLt N_1
  have hr : t.val * 5000 + p.val < 100000 := by have := p.isLt; omega
  -- the output element (p, q) of block t is row t · 5000 + p of the array
  have h3 : ((cfg1.win 3).blk t).view.emb (ix2 p q) = ix2 (⟨t.val * 5000 + p.val, hr⟩ : Fin 100000) q := by
    funext a; apply Fin.ext
    match a with
    | ⟨0, _⟩ => show win1_3.index t (0 : Fin 2) * 5000 + 1 * p.val = t.val * 5000 + p.val; omega
    | ⟨1, _⟩ => show win1_3.index t (1 : Fin 2) * 16 + 1 * q.val = q.val; omega
  show k1_pay1 (iblk1 V c 0 t) (iblk1 V c 1 t) (iblk1 V c 2 t) (ix2 p q)
    = whole V c (((cfg1.win 3).blk t).view.emb (ix2 p q))
  rw [pay_apply, h3]
  show _ = Cert.Spec.dense2 (Ideal.ofBits .f32 0x00000000#32) (V c main_v48) (V c main_v49) (V c main_arg5)
      (⟨t.val * 5000 + p.val, hr⟩ : Fin 100000) q
  unfold Cert.Spec.dense2
  refine Finset.sum_congr rfl fun k _ => ?_
  -- each input block is read where the output's rows are
  have h0 : iblk1 V c 0 t (ix2 p k) = V c main_v48 (ix2 (⟨t.val * 5000 + p.val, hr⟩ : Fin 100000) k) := by
    show V c main_v48 (((cfg1.win 0).blk t).view.emb (ix2 p k)) = _
    congr 1
    funext a; apply Fin.ext
    match a with
    | ⟨0, _⟩ => show win1_0.index t (0 : Fin 2) * 5000 + 1 * p.val = t.val * 5000 + p.val; omega
    | ⟨1, _⟩ => show win1_0.index t (1 : Fin 2) * 64 + 1 * k.val = k.val; omega
  have h1 : iblk1 V c 1 t (ix2 (0 : Fin 1) k) = V c main_v49 (ix2 (0 : Fin 1) k) := by
    show V c main_v49 (((cfg1.win 1).blk t).view.emb (ix2 (0 : Fin 1) k)) = _
    congr 1
    funext a; apply Fin.ext
    match a with
    | ⟨0, _⟩ => show win1_1.index t (0 : Fin 2) * 1 + 1 * (0 : Fin 1).val = (0 : Fin 1).val; omega
    | ⟨1, _⟩ => show win1_1.index t (1 : Fin 2) * 64 + 1 * k.val = k.val; omega
  have h2 : iblk1 V c 2 t (ix2 k q) = V c main_arg5 (ix2 k q) := by
    show V c main_arg5 (((cfg1.win 2).blk t).view.emb (ix2 k q)) = _
    congr 1
    funext a; apply Fin.ext
    match a with
    | ⟨0, _⟩ => show win1_2.index t (0 : Fin 2) * 64 + 1 * k.val = k.val; omega
    | ⟨1, _⟩ => show win1_2.index t (1 : Fin 2) * 16 + 1 * q.val = q.val; omega
  rw [h0, h1, h2]

/-- An index of the array is in point t's block iff each coordinate is in the block's range on its axis. -/
theorem mem_blk (t : Fin cfg1.N) (i : S100000x16.Idx) :
    i ∈ ((cfg1.win 3).blk t).view.set ↔ ∀ a : Fin 2, win1_3.index t a * S5000x16.size a ≤ (i a).val
      ∧ (i a).val < win1_3.index t a * S5000x16.size a + S5000x16.size a := by
  show i ∈ ((View.whole main_v50).slice (win1_3.rect t)).set ↔ _
  rw [View.set_slice_whole, Rect.mem_set_unit]
  exact Iff.rfl

/-- The blocks cover the array: row r lies in the block of point r / 5000, which is written back. -/
theorem cover (i : S100000x16.Idx) :
    ∃ t : Fin cfg1.N, (cfg1.win 3).flush t = true ∧ i ∈ ((cfg1.win 3).blk t).view.set := by
  have hi0 : (i 0).val < 100000 := (i 0).isLt
  have hi1 : (i 1).val < 16 := (i 1).isLt
  obtain ⟨t, ht⟩ : ∃ t : Fin cfg1.N, t.val = (i 0).val / 5000 :=
    ⟨⟨(i 0).val / 5000, lt_of_lt_of_eq (by omega : (i 0).val / 5000 < 20) N_1.symm⟩, rfl⟩
  obtain ⟨-, -, -, -, -, -, e30, e31⟩ := index_facts t
  refine ⟨t, flush1_3 t, ?_⟩
  rw [mem_blk]
  intro a
  match a with
  | ⟨0, _⟩ =>
    show win1_3.index t (0 : Fin 2) * 5000 ≤ (i 0).val ∧ (i 0).val < win1_3.index t (0 : Fin 2) * 5000 + 5000
    omega
  | ⟨1, _⟩ =>
    show win1_3.index t (1 : Fin 2) * 16 ≤ (i 1).val ∧ (i 1).val < win1_3.index t (1 : Fin 2) * 16 + 16
    omega

end Reg1

variable (V : (c : Dev nD) → (b : Ref sig .tc) → Buf (Elt Ideal) ((c : Thread nD τ).loc b))

/-- The second stage's output array after the run, entry by entry: the blocks written back are restrictions of one
    whole-array function and they cover the array. -/
theorem reg1_value (c : Dev nD) :
    (dat1 (F := Ideal) V c).arrAt 3 cfg1.N
      = fun i : S100000x16.Idx => Cert.Spec.dense2 (Ideal.ofBits .f32 0x00000000#32) (V c main_v48) (V c main_v49) (V c main_arg5) ⟨(i 0).val, idx2_lt0 i⟩ ⟨(i 1).val, idx2_lt1 i⟩ :=
  (dat1 (F := Ideal) V c).arrAt_eq_of_cover 3 (Reg1.whole V c) (fun t _ => Reg1.flushed_eq V c t) Reg1.cover

end Cert.KernelIdeal.Hand
end
-- ==== Proof.Reg2.lean ====
/-
  The third kernel of the network, read as one function of its two input arrays: every row of the biased
  [100000, 16] array is replaced by the logarithm of its softmax. First the body's arithmetic on one
  [5000, 16] block, entry by entry; then each block the grid writes back, as the restriction of the
  whole-array function to the block's rows; then the cover of the 100000 rows by the 20 blocks.
-/
import proofs.«119410_j53472342835547_2_alg».proof.Proof.Gen.KernelIdeal.Frame
import proofs.«119410_j53472342835547_2_alg».proof.Proof.Spec
import proofs.«119410_j53472342835547_2_alg».proof.Proof.LibPlain
import proofs.«119410_j53472342835547_2_alg».proof.Proof.LibWhole
import Idealize.ShloMosaic.Lib.Pipeline.Value
import Idealize.ShloMosaic.Lib.ValueIdx
import Idealize.ShloMosaic.Lib.ValueLayout

noncomputable section
namespace Cert.KernelIdeal.Hand
open Cert.KernelIdeal Cert.KernelIdeal.Gen Idealize.ShloMosaic Idealize.ShloMosaic.TcCoe Idealize.ShloMosaic.ValueIdx Idealize.SL.Sem
open Idealize.ShloMosaic.Pipeline (Dat Cfg Window)

namespace LogSoftmax

/-! ## The body's arithmetic on one block -/

/-- Entry (p, j) of the block plus the bias row. -/
def biasedBlk (x0 : Vec Ideal S5000x16 .f32) (x1 : Vec Ideal S1x16 .f32) (p : Fin 5000) (j : Fin 16) : EReal :=
  x0 (ix2 p j) + x1 (ix2 (0 : Fin 1) j)

/-- The largest entry of row p of the biased block, folded from the floor. -/
def blkMax (x0 : Vec Ideal S5000x16 .f32) (x1 : Vec Ideal S1x16 .f32) (p : Fin 5000) : EReal :=
  (Finset.univ : Finset (Fin 16)).fold max (Ideal.ofBits .f32 0xFF800000#32) (biasedBlk x0 x1 p)

/-- A row maximum, recast as a column and broadcast back along the rows, read at (p, q): the fold of max over row p. -/
theorem rowMax_keepdims_apply (v : FVec Ideal S5000x16 .f32) (hr : S5000x16.Reduces [1] S5000)
    (hc : S5000.ShapeCasts S5000x1) (hb : S5000x1.Broadcasts S5000x16) (p : Fin 5000) (q : Fin 16) :
    broadcastTo S5000x16 (shapeCast S5000x1 (multiReduction (F := Ideal) .maximumf [1] S5000 v 0xFF800000#32 hr (.inl rfl) rfl) hc) hb (ix2 p q)
      = (Finset.univ : Finset (Fin 16)).fold max (Ideal.ofBits .f32 0xFF800000#32) (fun j => v (ix2 p j)) :=
  (broadcastTo_col _ hb p q).trans ((shapeCast_col _ hc p 0).trans (Ideal.multiReduction_maximumf_rows_f32 v hr rfl p))

/-- The logarithm of a row sum, the sum recast as a column and the logarithm broadcast back along the rows, read at
    (p, q): the logarithm of the sum over row p. -/
theorem logRowSum_keepdims_apply (v : FVec Ideal S5000x16 .f32) (hr : S5000x16.Reduces [1] S5000)
    (hc : S5000.ShapeCasts S5000x1) (hb : S5000x1.Broadcasts S5000x16) (p : Fin 5000) (q : Fin 16) :
    broadcastTo S5000x16 (Idealize.ShloMosaic.log (shapeCast S5000x1 (multiReduction (F := Ideal) .add [1] S5000 v 0x00000000#32 hr (.inl rfl) rfl) hc)) hb (ix2 p q)
      = Ideal.log (∑ j : Fin 16, v (ix2 p j)) :=
  (broadcastTo_col _ hb p q).trans (congrArg Ideal.log ((shapeCast_col _ hc p 0).trans (Ideal.multiReduction_add_rows_f32 v hr rfl p)))

/-- The block plus the broadcast bias row, read at (p, j). -/
theorem biased_apply (x0 : Vec Ideal S5000x16 .f32) (x1 : Vec Ideal S1x16 .f32) (hs0 : S5000x16.ShapeCasts S5000x16)
    (hs1 : S1x16.ShapeCasts S1x16) (hb : S1x16.Broadcasts S5000x16) (p : Fin 5000) (j : Fin 16) :
    addf (F := Ideal) (φ := .f32) (shapeCast S5000x16 x0 hs0) (broadcastTo S5000x16 (shapeCast S1x16 x1 hs1) hb) (ix2 p j) = biasedBlk x0 x1 p j := by
  rw [addf_apply, shapeCast_self, shapeCast_self, broadcastTo_1b_ab_apply]
  rfl

/-- A block minus its broadcast row maxima, read at (p, j). -/
theorem centred_apply (X : FVec Ideal S5000x16 .f32) (hr : S5000x16.Reduces [1] S5000)
    (hc : S5000.ShapeCasts S5000x1) (hb : S5000x1.Broadcasts S5000x16) (p : Fin 5000) (j : Fin 16) :
    subf X (broadcastTo S5000x16 (shapeCast S5000x1 (multiReduction (F := Ideal) .maximumf [1] S5000 X 0xFF800000#32 hr (.inl rfl) rfl) hc) hb) (ix2 p j)
      = X (ix2 p j) - (Finset.univ : Finset (Fin 16)).fold max (Ideal.ofBits .f32 0xFF800000#32) (fun k => X (ix2 p k)) :=
  congrArg (X (ix2 p j) - ·) (rowMax_keepdims_apply X hr hc hb p j)

/-- A block minus the broadcast logarithms of the row sums of its exponentials, read at (p, q). -/
theorem minusLogSumExp_apply (Z : FVec Ideal S5000x16 .f32) (hr : S5000x16.Reduces [1] S5000)
    (hc : S5000.ShapeCasts S5000x1) (hb : S5000x1.Broadcasts S5000x16) (p : Fin 5000) (q : Fin 16) :
    subf Z (broadcastTo S5000x16 (Idealize.ShloMosaic.log (shapeCast S5000x1 (multiReduction (F := Ideal) .add [1] S5000 (Idealize.ShloMosaic.exp Z) 0x00000000#32 hr (.inl rfl) rfl) hc)) hb) (ix2 p q)
      = Z (ix2 p q) - Ideal.log (∑ j : Fin 16, Ideal.exp (Z (ix2 p j))) :=
  congrArg (Z (ix2 p q) - ·) (logRowSum_keepdims_apply (Idealize.ShloMosaic.exp Z) hr hc hb p q)

/-- The biased block minus its broadcast row maxima, read at (p, j). -/
theorem centred_biased_apply (x0 : Vec Ideal S5000x16 .f32) (x1 : Vec Ideal S1x16 .f32) (hs0 : S5000x16.ShapeCasts S5000x16)
    (hs1 : S1x16.ShapeCasts S1x16) (hb1 : S1x16.Broadcasts S5000x16) (hr : S5000x16.Reduces [1] S5000)
    (hc : S5000.ShapeCasts S5000x1) (hb : S5000x1.Broadcasts S5000x16) (p : Fin 5000) (j : Fin 16) :
    subf (addf (F := Ideal) (φ := .f32) (shapeCast S5000x16 x0 hs0) (broadcastTo S5000x16 (shapeCast S1x16 x1 hs1) hb1))
        (broadcastTo S5000x16 (shapeCast S5000x1 (multiReduction (F := Ideal) .maximumf [1] S5000
          (addf (F := Ideal) (φ := .f32) (shapeCast S5000x16 x0 hs0) (broadcastTo S5000x16 (shapeCast S1x16 x1 hs1) hb1))
          0xFF800000#32 hr (.inl rfl) rfl) hc) hb) (ix2 p j)
      = biasedBlk x0 x1 p j - blkMax x0 x1 p :=
  (centred_apply _ hr hc hb p j).trans (congrArg₂ (· - ·) (biased_apply x0 x1 hs0 hs1 hb1 p j)
    (congrArg (fun f => (Finset.univ : Finset (Fin 16)).fold max (Ideal.ofBits .f32 0xFF800000#32) f)
      (funext fun k => biased_apply x0 x1 hs0 hs1 hb1 p k)))

/-- THE BODY'S RESULT AT (p, q): the biased entry minus its row's maximum, minus the logarithm of the row's sum of the
    exponentials of those differences. -/
theorem pay_apply (x0 : Vec Ideal S5000x16 .f32) (x1 : Vec Ideal S1x16 .f32) (p : Fin 5000) (q : Fin 16) :
    k2_pay1 (F := Ideal) x0 x1 (ix2 p q)
      = (biasedBlk x0 x1 p q - blkMax x0 x1 p)
        - Ideal.log (∑ j : Fin 16, Ideal.exp (biasedBlk x0 x1 p j - blkMax x0 x1 p)) := by
  unfold k2_pay1
  dsimp only
  refine (minusLogSumExp_apply _ _ _ _ p q).trans ?_
  exact congrArg₂ (fun a s => a - Ideal.log s) (centred_biased_apply x0 x1 _ _ _ _ _ _ p q)
    (Finset.sum_congr rfl fun j _ => congrArg Ideal.exp (centred_biased_apply x0 x1 _ _ _ _ _ _ p j))

/-- The same expression over a block whose row p is row P of the array a and whose bias row is b's: entry (P, q) of the
    whole-array function, the sum's starting value being zero. -/
theorem logSoftmax_of_rows (a : (⟨2, ![100000, 16]⟩ : Shape).Idx → EReal) (b : (⟨2, ![1, 16]⟩ : Shape).Idx → EReal)
    (x0 : Vec Ideal S5000x16 .f32) (x1 : Vec Ideal S1x16 .f32) (P : Fin 100000) (p : Fin 5000)
    (h0 : ∀ j : Fin 16, x0 (ix2 p j) = a (ix2 P j)) (h1 : ∀ j : Fin 16, x1 (ix2 (0 : Fin 1) j) = b (ix2 (0 : Fin 1) j)) (q : Fin 16) :
    (biasedBlk x0 x1 p q - blkMax x0 x1 p) - Ideal.log (∑ j : Fin 16, Ideal.exp (biasedBlk x0 x1 p j - blkMax x0 x1 p))
      = Cert.Spec.logSoftmax (Ideal.ofBits .f32 0xFF800000#32) (Ideal.ofBits .f32 0x00000000#32) a b P q := by
  have hb : biasedBlk x0 x1 p = Cert.Spec.biased a b P := funext fun j => by
    unfold biasedBlk Cert.Spec.biased
    rw [h0 j, h1 j]
  unfold Cert.Spec.logSoftmax Cert.Spec.rowMax blkMax
  rw [hb, Ideal.ofBits_zero_f32, zero_add]

/-! ## The blocks the grid reads and writes -/

variable (V : (c : Dev nD) → (b : Ref sig .tc) → Buf (Elt Ideal) ((c : Thread nD τ).loc b))

/-- The printed index maps, decided over the grid: at point t the input and the output are at row block t, the bias at
    its one block. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Row p of the input block at point t is row 5000 t + p of the input array. -/
theorem iblk0_apply (c : Dev nD) (t : Fin cfg2.N) (p : Fin 5000) (j : Fin 16) (k : S100000x16.Idx)
    (hk0 : (k 0).val = 5000 * t.val + p.val) (hk1 : (k 1).val = j.val) :
    (iblk2 (F := Ideal) V c 0 t : Vec Ideal S5000x16 .f32) (ix2 p j) = (V c main_v63 : S100000x16.Idx → Elt Ideal .f32) k := by
  obtain ⟨e0, e1, -⟩ := idx_facts t
  unfold iblk2
  rw [View.read_apply]
  show V c main_v63 _ = V c main_v63 _
  congr 1
  funext a
  apply Fin.ext
  match a with
  | ⟨0, _⟩ => show win2_0.index t (0 : Fin 2) * 5000 + 1 * p.val = (k 0).val; rw [e0, hk0]; omega
  | ⟨1, _⟩ => show win2_0.index t (1 : Fin 2) * 16 + 1 * j.val = (k 1).val; rw [e1, hk1]; omega

/-- The bias block at every point is the bias array. -/
theorem iblk1_apply (c : Dev nD) (t : Fin cfg2.N) (j : Fin 16) :
    (iblk2 (F := Ideal) V c 1 t : Vec Ideal S1x16 .f32) (ix2 (0 : Fin 1) j) = (V c main_v64 : S1x16.Idx → Elt Ideal .f32) (ix2 (0 : Fin 1) j) := by
  obtain ⟨-, -, e0, e1, -⟩ := idx_facts t
  unfold iblk2
  rw [View.read_apply]
  show V c main_v64 _ = V c main_v64 _
  congr 1
  funext a
  apply Fin.ext
  match a with
  | ⟨0, _⟩ => show win2_1.index t (0 : Fin 2) * 1 + 1 * 0 = 0; rw [e0]
  | ⟨1, _⟩ => show win2_1.index t (1 : Fin 2) * 16 + 1 * j.val = j.val; rw [e1]; omega

/-- The whole-array function: entry (r, q) is entry q of the logarithm of the softmax of row r of a + b. -/
abbrev wholeFn (a : (⟨2, ![100000, 16]⟩ : Shape).Idx → EReal) (b : (⟨2, ![1, 16]⟩ : Shape).Idx → EReal) : S100000x16.Idx → EReal :=
  fun i => Cert.Spec.logSoftmax (Ideal.ofBits .f32 0xFF800000#32) (Ideal.ofBits .f32 0x00000000#32) a b ⟨(i 0).val, idx2_lt0 i⟩ ⟨(i 1).val, idx2_lt1 i⟩

/-- WHAT POINT t WRITES BACK is block t of the whole-array function of the two input arrays as the region finds them. -/
theorem flushed_eq (c : Dev nD) (t : Fin cfg2.N) :
    (dat2 (F := Ideal) V c).flushed 2 t
      = ((cfg2.win 2).blk t).view.read (Elt Ideal) (wholeFn (V c main_v63) (V c main_v64)) := by
  show (cfg2.win 2).cut (grid2.coords t) ((dat2 V c).after 2 t) = _
  rw [after2_2]
  unfold out2_2
  rw [View.canon_unit_zero View.zero_offsets2]
  simp only [View.ld_unit_zero (S := S5000x16) View.zero_offsets2, View.ld_unit_zero (S := S1x16) View.zero_offsets2]
  funext y
  obtain ⟨p, q, rfl⟩ : ∃ (p : Fin 5000) (q : Fin 16), y = ix2 p q := ⟨y 0, y 1, eq_ix2 y⟩
  rw [View.read_apply]
  refine (pay_apply (iblk2 V c 0 t) (iblk2 V c 1 t) p q).trans ?_
  obtain ⟨-, -, -, -, e0, e1⟩ := idx_facts t
  have hP : 5000 * t.val + p.val < 100000 := by
    have hN : cfg2.N = 20 := N_2
    have ht := t.isLt
    have hp := p.isLt
    omega
  refine (logSoftmax_of_rows (V c main_v63) (V c main_v64) _ _ ⟨5000 * t.val + p.val, hP⟩ p
    (fun j => iblk0_apply V c t p j _ rfl rfl) (fun j => iblk1_apply V c t j) q).trans ?_
  show _ = Cert.Spec.logSoftmax _ _ _ _ _ _
  congr 1 <;> apply Fin.ext
  · show 5000 * t.val + p.val = win2_2.index t (0 : Fin 2) * 5000 + 1 * p.val
    rw [e0]; omega
  · show q.val = win2_2.index t (1 : Fin 2) * 16 + 1 * q.val
    rw [e1]; omega

/-! ## The cover, and the array after the run -/

/-- An index of the array is in point t's block iff each coordinate is in the block's range on its axis. -/
theorem mem_blk (t : Fin cfg2.N) (i : S100000x16.Idx) :
    i ∈ ((cfg2.win 2).blk t).view.set ↔ ∀ a : Fin 2, win2_2.index t a * S5000x16.size a ≤ (i a).val
      ∧ (i a).val < win2_2.index t a * S5000x16.size a + S5000x16.size a := by
  show i ∈ ((View.whole main_v65).slice (win2_2.rect t)).set ↔ _
  rw [View.set_slice_whole, Rect.mem_set_unit]
  exact Iff.rfl

/-- Every index of the array is in the block of the point its row falls to: row r is in block r / 5000. -/
theorem covered (i : S100000x16.Idx) :
    ∃ t : Fin cfg2.N, (cfg2.win 2).flush t = true ∧ i ∈ ((cfg2.win 2).blk t).view.set := by
  have hi0 : (i 0).val < 100000 := idx2_lt0 i
  have hi1 : (i 1).val < 16 := idx2_lt1 i
  have hN : cfg2.N = 20 := N_2
  obtain ⟨t, ht⟩ : ∃ t : Fin cfg2.N, t.val = (i 0).val / 5000 := ⟨⟨(i 0).val / 5000, by rw [hN]; omega⟩, rfl⟩
  obtain ⟨-, -, -, -, e0, e1⟩ := idx_facts t
  refine ⟨t, flush2_2 t, ?_⟩
  rw [mem_blk]
  intro a
  match a with
  | ⟨0, _⟩ =>
    show win2_2.index t (0 : Fin 2) * 5000 ≤ (i 0).val ∧ (i 0).val < win2_2.index t (0 : Fin 2) * 5000 + 5000
    rw [e0, ht]; omega
  | ⟨1, _⟩ =>
    show win2_2.index t (1 : Fin 2) * 16 ≤ (i 1).val ∧ (i 1).val < win2_2.index t (1 : Fin 2) * 16 + 16
    rw [e1]; omega

end LogSoftmax

variable (V : (c : Dev nD) → (b : Ref sig .tc) → Buf (Elt Ideal) ((c : Thread nD τ).loc b))

/-- THE OUTPUT ARRAY AFTER THE RUN: entry (r, q) is entry q of the logarithm of the softmax of row r of the biased input;
    every point's block is the restriction of that one function, and the twenty blocks cover the array. -/
theorem reg2_value (c : Dev nD) :
    (dat2 (F := Ideal) V c).arrAt 2 cfg2.N
      = fun i : S100000x16.Idx => Cert.Spec.logSoftmax (Ideal.ofBits .f32 0xFF800000#32) (Ideal.ofBits .f32 0x00000000#32) (V c main_v63) (V c main_v64) ⟨(i 0).val, idx2_lt0 i⟩ ⟨(i 1).val, idx2_lt1 i⟩ :=
  (dat2 (F := Ideal) V c).arrAt_eq_of_cover 2 (LogSoftmax.wholeFn (V c main_v63) (V c main_v64))
    (fun t _ => LogSoftmax.flushed_eq V c t) LogSoftmax.covered

end Cert.KernelIdeal.Hand
end
-- ==== Proof.RefSpec.lean ====
/-
  The reference program's three dense stages read as whole-array functions, entry by entry, over the extended reals:
  its first matrix product, its second product (of the rectified, biased aggregate), and its row-wise logarithm of the
  softmax of the biased second aggregate are the three functions of Spec.lean, applied to the arrays the reference
  computes before each stage.
-/
import proofs.«119410_j53472342835547_2_alg».proof.Proof.RefRead
import proofs.«119410_j53472342835547_2_alg».proof.Proof.Spec
import proofs.«119410_j53472342835547_2_alg».proof.Proof.LibPlain
import Idealize.ShloMosaic.PureOps.Ideal.Laws
import Idealize.ShloMosaic.Lib.ValueIdx
import Mathlib.Data.Finset.Fold

noncomputable section
namespace Cert.ReferenceIdeal.RefSpec
open Cert.ReferenceIdeal Cert.ReferenceIdeal.Read Idealize.ShloMosaic Idealize.ShloMosaic.ValueIdx

/-- The reference's first product is the spec's: entry (p, q) is the sum over k of x[p, k] · w[k, q]. -/
theorem ref_dense1 (x0 : (⟨S100000x512, .f32⟩ : BufTy).Contents (Elt Ideal)) (x3 : (⟨S512x64, .f32⟩ : BufTy).Contents (Elt Ideal)) :
    val_main_v9 (F := Ideal) x0 x3 = fun i : S100000x64.Idx => Cert.Spec.dense1 x0 x3 ⟨(i 0).val, idx2_lt0 i⟩ ⟨(i 1).val, idx2_lt1 i⟩ := by
  funext i
  obtain ⟨p, q, rfl⟩ : ∃ (p : Fin 100000) (q : Fin 64), i = ix2 p q := ⟨i 0, i 1, eq_ix2 i⟩
  rw [val_main_v9_apply]
  show _ = Cert.Spec.dense1 x0 x3 p q
  unfold Cert.Spec.dense1
  refine Finset.sum_congr rfl fun k _ => ?_
  have el : lidx_main_v9 (ix2 p q) k = ix2 p k := funext fun a => Fin.ext (by match a with | ⟨0, _⟩ => rfl | ⟨1, _⟩ => rfl)
  have er : ridx_main_v9 (ix2 p q) k = ix2 k q := funext fun a => Fin.ext (by match a with | ⟨0, _⟩ => rfl | ⟨1, _⟩ => rfl)
  rw [el, er]

/-- The reference's second product (of the rectified, biased aggregate) is the spec's, for any one-row array b that
    holds the bias: entry (p, q) is the sum over k of max(a[p, k] + b[0, k], 0) · w[k, q], a the first aggregate. -/
theorem ref_dense2 (x0 : (⟨S100000x512, .f32⟩ : BufTy).Contents (Elt Ideal)) (x1 : (⟨S2x3200000, .i32⟩ : BufTy).Contents (Elt Ideal)) (x2 : (⟨S3200000, .f32⟩ : BufTy).Contents (Elt Ideal)) (x3 : (⟨S512x64, .f32⟩ : BufTy).Contents (Elt Ideal)) (x4 : (⟨S64, .f32⟩ : BufTy).Contents (Elt Ideal)) (x5 : (⟨S64x16, .f32⟩ : BufTy).Contents (Elt Ideal)) (b : (⟨S1x64, .f32⟩ : BufTy).Contents (Elt Ideal)) (hb : ∀ k : Fin 64, b (ix2 (0 : Fin 1) k) = x4 (ix1 k)) :
    val_main_v53 (F := Ideal) x0 x1 x2 x3 x4 x5
      = fun i : S100000x16.Idx => Cert.Spec.dense2 (Ideal.ofBits .f32 0x00000000#32) (val_main_v48 (F := Ideal) x0 x1 x2 x3) b x5 ⟨(i 0).val, idx2_lt0 i⟩ ⟨(i 1).val, idx2_lt1 i⟩ := by
  funext i
  obtain ⟨p, q, rfl⟩ : ∃ (p : Fin 100000) (q : Fin 16), i = ix2 p q := ⟨i 0, i 1, eq_ix2 i⟩
  rw [val_main_v53_apply]
  show _ = Cert.Spec.dense2 (Ideal.ofBits .f32 0x00000000#32) (val_main_v48 (F := Ideal) x0 x1 x2 x3) b x5 p q
  unfold Cert.Spec.dense2
  refine Finset.sum_congr rfl fun k _ => ?_
  have el : lidx_main_v53 (ix2 p q) k = ix2 p k := funext fun a => Fin.ext (by match a with | ⟨0, _⟩ => rfl | ⟨1, _⟩ => rfl)
  have er : ridx_main_v53 (ix2 p q) k = ix2 k q := funext fun a => Fin.ext (by match a with | ⟨0, _⟩ => rfl | ⟨1, _⟩ => rfl)
  have eb : idx_main_v49 (idx_main_v50 (ix2 p k)) = ix1 k := funext fun a => Fin.ext (by match a with | ⟨0, _⟩ => rfl)
  rw [el, er, val_main_v52_apply, val_main_v51_apply, val_main_v50_apply, val_main_v49_apply, eb, ← hb k,
    val_main_call2_v0_apply, val_main_call2_cst_apply]
  rfl

/-- The host's reduction by maximum along the rows of an [M, N] array, at row p: the fold of max over the row's
    entries from the initial value. -/
theorem hostReduce_max_rows {M N : Nat} (x : FVec Ideal ⟨2, ![M, N]⟩ .f32) (init : (⟨0, ![]⟩ : Shape).Idx → Ideal .f32)
    (h' : (⟨2, ![M, N]⟩ : Shape).ReducesTo [1] ⟨1, ![M]⟩) (h : (⟨2, ![M, N]⟩ : Shape).Reduces [1] ⟨1, ![M]⟩)
    (hu : 0 < (⟨0, ![]⟩ : Shape).numel) (p : Fin M) :
    Host.reduce FloatOps.maximumf x init h' hu (ix1 p)
      = (Finset.univ : Finset (Fin N)).fold max (init (Shape.Idx.first hu)) (fun q => x (ix2 p q)) := by
  rw [Host.reduce_eq_fold_single FloatOps.maximumf x init h' h hu]
  exact congrArg (fun f => Finset.fold max (init (Shape.Idx.first hu)) f (Finset.univ : Finset (Fin N)))
    (funext fun q => congrArg x (lift_rows h p q) : x ∘ h.lift (ix1 p) = fun q => x (ix2 p q))

/-- A fold of max already dominates its starting value, so taking the maximum with that value again changes nothing. -/
theorem max_fold_max_self {ι : Type} (s : Finset ι) (lo : EReal) (f : ι → EReal) :
    max lo (s.fold max lo f) = s.fold max lo f :=
  max_eq_right ((Finset.le_fold_max lo).mpr (Or.inl le_rfl))

/-- The reference's log-softmax of the biased second aggregate is the spec's, for any one-row array b that holds the
    bias: with x = a + b row by row and m the row's largest entry, entry (p, q) is (x[q] - m) - log (0 + Σ_j exp (x[j] - m)). -/
theorem ref_logSoftmax (x0 : (⟨S100000x512, .f32⟩ : BufTy).Contents (Elt Ideal)) (x1 : (⟨S2x3200000, .i32⟩ : BufTy).Contents (Elt Ideal)) (x2 : (⟨S3200000, .f32⟩ : BufTy).Contents (Elt Ideal)) (x3 : (⟨S512x64, .f32⟩ : BufTy).Contents (Elt Ideal)) (x4 : (⟨S64, .f32⟩ : BufTy).Contents (Elt Ideal)) (x5 : (⟨S64x16, .f32⟩ : BufTy).Contents (Elt Ideal)) (x6 : (⟨S16, .f32⟩ : BufTy).Contents (Elt Ideal)) (b : (⟨S1x16, .f32⟩ : BufTy).Contents (Elt Ideal)) (hb : ∀ k : Fin 16, b (ix2 (0 : Fin 1) k) = x6 (ix1 k)) :
    val_main_v96 (F := Ideal) x0 x1 x2 x3 x4 x5 x6
      = fun i : S100000x16.Idx => Cert.Spec.logSoftmax (Ideal.ofBits .f32 0xFF800000#32) (Ideal.ofBits .f32 0x00000000#32) (val_main_v92 (F := Ideal) x0 x1 x2 x3 x4 x5) b ⟨(i 0).val, idx2_lt0 i⟩ ⟨(i 1).val, idx2_lt1 i⟩ := by
  funext i
  obtain ⟨p, q, rfl⟩ : ∃ (p : Fin 100000) (q : Fin 16), i = ix2 p q := ⟨i 0, i 1, eq_ix2 i⟩
  -- the biased aggregate at (p, j)
  have hx : ∀ j : Fin 16, val_main_v95 (F := Ideal) x0 x1 x2 x3 x4 x5 x6 (ix2 p j)
      = Cert.Spec.biased (val_main_v92 (F := Ideal) x0 x1 x2 x3 x4 x5) b p j := fun j => by
    have eb : idx_main_v93 (idx_main_v94 (ix2 p j)) = ix1 j := funext fun a => Fin.ext (by match a with | ⟨0, _⟩ => rfl)
    rw [val_main_v95_apply, val_main_v94_apply, val_main_v93_apply, eb, ← hb j]
    rfl
  -- the row's largest entry, as the reference computes it
  have hm : ∀ j : Fin 16, val_main_call5_v4 (F := Ideal) x0 x1 x2 x3 x4 x5 x6 (ix2 p j)
      = Cert.Spec.rowMax (Ideal.ofBits .f32 0xFF800000#32) (val_main_v92 (F := Ideal) x0 x1 x2 x3 x4 x5) b p := fun j => by
    have e3 : idx_main_call5_v3 (idx_main_call5_v4 (ix2 p j)) = ix1 p := funext fun a => Fin.ext (by match a with | ⟨0, _⟩ => rfl)
    rw [val_main_call5_v4_apply, val_main_call5_v3_apply, e3, val_main_call5_v2_apply, val_main_call5_v1_apply,
      val_main_call5_cst_0_apply]
    unfold val_main_call5_v0
    rw [hostReduce_max_rows (val_main_v95 (F := Ideal) x0 x1 x2 x3 x4 x5 x6) (val_main_call5_cst (F := Ideal))
      Gen.reducesTo_S100000x16_S100000_d1 (by decide) Gen.h_S_ p, val_main_call5_cst_apply]
    show max (Ideal.ofBits .f32 0xFF800000#32) (Finset.fold max (Ideal.ofBits .f32 0xFF800000#32) _ Finset.univ) = _
    rw [max_fold_max_self, funext hx]
    rfl
  -- the entries of the row less its largest
  have h5 : ∀ j : Fin 16, val_main_call5_v5 (F := Ideal) x0 x1 x2 x3 x4 x5 x6 (ix2 p j)
      = Cert.Spec.biased (val_main_v92 (F := Ideal) x0 x1 x2 x3 x4 x5) b p j - Cert.Spec.rowMax (Ideal.ofBits .f32 0xFF800000#32) (val_main_v92 (F := Ideal) x0 x1 x2 x3 x4 x5) b p := fun j => by
    rw [val_main_call5_v5_apply, hx j, hm j]
    rfl
  -- the logarithm of the row's sum of exponentials
  have h10 : val_main_call5_v10 (F := Ideal) x0 x1 x2 x3 x4 x5 x6 (ix2 p q)
      = Ideal.log (Ideal.ofBits .f32 0x00000000#32
          + ∑ j : Fin 16, Ideal.exp (Cert.Spec.biased (val_main_v92 (F := Ideal) x0 x1 x2 x3 x4 x5) b p j - Cert.Spec.rowMax (Ideal.ofBits .f32 0xFF800000#32) (val_main_v92 (F := Ideal) x0 x1 x2 x3 x4 x5) b p)) := by
    have e8 : idx_main_call5_v8 (idx_main_call5_v10 (ix2 p q)) = ix1 p := funext fun a => Fin.ext (by match a with | ⟨0, _⟩ => rfl)
    rw [val_main_call5_v10_apply, val_main_call5_v9_apply, val_main_call5_v8_apply, e8, val_main_call5_v7_apply,
      val_main_call5_cst_1_apply]
    have hs : ∑ k : Fin 16, val_main_call5_v6 (F := Ideal) x0 x1 x2 x3 x4 x5 x6 (idx_main_call5_v7 (ix1 p) k)
        = ∑ j : Fin 16, Ideal.exp (Cert.Spec.biased (val_main_v92 (F := Ideal) x0 x1 x2 x3 x4 x5) b p j - Cert.Spec.rowMax (Ideal.ofBits .f32 0xFF800000#32) (val_main_v92 (F := Ideal) x0 x1 x2 x3 x4 x5) b p) :=
      Finset.sum_congr rfl fun k _ => by
        have e7 : idx_main_call5_v7 (ix1 p) k = ix2 p k :=
          funext fun a => Fin.ext (by match a with | ⟨0, _⟩ => rfl | ⟨1, _⟩ => rfl)
        rw [e7, val_main_call5_v6_apply, h5 k]
        exact Ideal.hostUnary_exp_def _
    rw [hs, Ideal.hostUnary_log_def, Ideal.ofBits_def]
  rw [val_main_v96_apply, h5 q, h10]
  rfl

end Cert.ReferenceIdeal.RefSpec
end
-- ==== Proof.KernelStretch.lean ====
/-
  The two later stretches of host operations of the kernel program, read from arbitrary buffer contents: each gathers
  the rows of a dense stage's output at the source end of every edge (an index below zero counted from the end), scales
  them by the edge's normalised weight, and scatter-adds them at the target end. Given that the buffers a stretch
  reads hold the reference's stages, the aggregate it writes is the reference's aggregate stage: the two programs
  apply the same operations, and the reference's second edge normalisation is its first.
-/
import proofs.«119410_j53472342835547_2_alg».proof.Proof.Gen.KernelIdeal.Launch
import proofs.«119410_j53472342835547_2_alg».proof.Proof.RefRead
import Idealize.ShloMosaic.Lib.StableHlo.Run
import Idealize.ShloMosaic.PureOps.Ideal
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

/-- The reference normalises the edge weights once per layer, by the same operations of the same arrays. -/
theorem norm_twice (x1 : (⟨Cert.ReferenceIdeal.S2x3200000, .i32⟩ : BufTy).Contents (Elt Ideal))
    (x2 : (⟨Cert.ReferenceIdeal.S3200000, .f32⟩ : BufTy).Contents (Elt Ideal)) :
    Cert.ReferenceIdeal.Read.val_main_v79 (F := Ideal) x1 x2 = Cert.ReferenceIdeal.Read.val_main_v35 (F := Ideal) x1 x2 := rfl

/-- The first aggregation: from contents holding the first product, the joined endpoints and the normalised weights. -/
theorem stretch1_v48 (W : Valuation τ sig (Elt Ideal))
    (x0 : (⟨Cert.ReferenceIdeal.S100000x512, .f32⟩ : BufTy).Contents (Elt Ideal))
    (x1 : (⟨Cert.ReferenceIdeal.S2x3200000, .i32⟩ : BufTy).Contents (Elt Ideal))
    (x2 : (⟨Cert.ReferenceIdeal.S3200000, .f32⟩ : BufTy).Contents (Elt Ideal))
    (x3 : (⟨Cert.ReferenceIdeal.S512x64, .f32⟩ : BufTy).Contents (Elt Ideal))
    (h35 : W (Proc.devRef .tc main_v35) = Cert.ReferenceIdeal.Read.val_main_v9 (F := Ideal) x0 x3)
    (h3 : W (Proc.devRef .tc main_v3) = Cert.ReferenceIdeal.Read.val_main_v3 (F := Ideal) x1)
    (h6 : W (Proc.devRef .tc main_v6) = Cert.ReferenceIdeal.Read.val_main_v6 (F := Ideal) x1)
    (h34 : W (Proc.devRef .tc main_v34) = Cert.ReferenceIdeal.Read.val_main_v35 (F := Ideal) x1 x2) :
    StableHlo.after hostOps1 W (Proc.devRef .tc main_v48) = Cert.ReferenceIdeal.Read.val_main_v48 (F := Ideal) x0 x1 x2 x3 := by
  after_results_simp
  simp only [h35, h3, h6, h34]
  rfl

/-- The second aggregation: from contents holding the second product, the joined endpoints and the normalised weights. -/
theorem stretch2_v63 (W : Valuation τ sig (Elt Ideal))
    (x0 : (⟨Cert.ReferenceIdeal.S100000x512, .f32⟩ : BufTy).Contents (Elt Ideal))
    (x1 : (⟨Cert.ReferenceIdeal.S2x3200000, .i32⟩ : BufTy).Contents (Elt Ideal))
    (x2 : (⟨Cert.ReferenceIdeal.S3200000, .f32⟩ : BufTy).Contents (Elt Ideal))
    (x3 : (⟨Cert.ReferenceIdeal.S512x64, .f32⟩ : BufTy).Contents (Elt Ideal))
    (x4 : (⟨Cert.ReferenceIdeal.S64, .f32⟩ : BufTy).Contents (Elt Ideal))
    (x5 : (⟨Cert.ReferenceIdeal.S64x16, .f32⟩ : BufTy).Contents (Elt Ideal))
    (h50 : W (Proc.devRef .tc main_v50) = Cert.ReferenceIdeal.Read.val_main_v53 (F := Ideal) x0 x1 x2 x3 x4 x5)
    (h3 : W (Proc.devRef .tc main_v3) = Cert.ReferenceIdeal.Read.val_main_v3 (F := Ideal) x1)
    (h6 : W (Proc.devRef .tc main_v6) = Cert.ReferenceIdeal.Read.val_main_v6 (F := Ideal) x1)
    (h34 : W (Proc.devRef .tc main_v34) = Cert.ReferenceIdeal.Read.val_main_v35 (F := Ideal) x1 x2) :
    StableHlo.after hostOps2 W (Proc.devRef .tc main_v63) = Cert.ReferenceIdeal.Read.val_main_v92 (F := Ideal) x0 x1 x2 x3 x4 x5 := by
  after_results_simp
  simp only [h50, h3, h6, h34, ← norm_twice x1 x2]
  rfl

/-- The first later stretch writes neither the joined endpoints, nor the normalised weights, nor the later arguments. -/
theorem stretch1_keeps (W : Valuation τ sig (Elt Ideal)) :
    StableHlo.after hostOps1 W (Proc.devRef .tc main_v3) = W (Proc.devRef .tc main_v3)
    ∧ StableHlo.after hostOps1 W (Proc.devRef .tc main_v6) = W (Proc.devRef .tc main_v6)
    ∧ StableHlo.after hostOps1 W (Proc.devRef .tc main_v34) = W (Proc.devRef .tc main_v34)
    ∧ StableHlo.after hostOps1 W (Proc.devRef .tc main_arg5) = W (Proc.devRef .tc main_arg5)
    ∧ StableHlo.after hostOps1 W (Proc.devRef .tc main_arg6) = W (Proc.devRef .tc main_arg6) := by
  refine ⟨?_, ?_, ?_, ?_, ?_⟩ <;> after_results_simp

/-- Nor does the second. -/
theorem stretch2_keeps (W : Valuation τ sig (Elt Ideal)) :
    StableHlo.after hostOps2 W (Proc.devRef .tc main_v3) = W (Proc.devRef .tc main_v3)
    ∧ StableHlo.after hostOps2 W (Proc.devRef .tc main_v6) = W (Proc.devRef .tc main_v6)
    ∧ StableHlo.after hostOps2 W (Proc.devRef .tc main_v34) = W (Proc.devRef .tc main_v34) := by
  refine ⟨?_, ?_, ?_⟩ <;> after_results_simp

/-- The first later stretch recasts the first bias as one row: entry k of the bias sits at (0, k). -/
theorem stretch1_v49 (W : Valuation τ sig (Elt Ideal)) (k : Fin 64) :
    (StableHlo.after hostOps1 W (Proc.devRef .tc main_v49) : (⟨S1x64, .f32⟩ : BufTy).Contents (Elt Ideal)) (ValueIdx.ix2 (0 : Fin 1) k)
      = (W (Proc.devRef .tc main_arg4) : (⟨S64, .f32⟩ : BufTy).Contents (Elt Ideal)) (ValueIdx.ix1 k) := by
  have e : StableHlo.after hostOps1 W (Proc.devRef .tc main_v49)
      = fun i => shapeCast main_v49.ty.shape (W (Proc.devRef .tc main_arg4)) shapeCasts_S64_S1x64 i := by
    after_results_simp
  rw [e]
  refine shapeCast_apply _ shapeCasts_S64_S1x64 _ _ ?_
  rw [Shape.rowMajor_val_two, Shape.rowMajor_val_one]
  show k.val = 0 * 64 + k.val
  omega

/-- The second later stretch recasts the second bias as one row: entry k of the bias sits at (0, k). -/
theorem stretch2_v64 (W : Valuation τ sig (Elt Ideal)) (k : Fin 16) :
    (StableHlo.after hostOps2 W (Proc.devRef .tc main_v64) : (⟨S1x16, .f32⟩ : BufTy).Contents (Elt Ideal)) (ValueIdx.ix2 (0 : Fin 1) k)
      = (W (Proc.devRef .tc main_arg6) : (⟨S16, .f32⟩ : BufTy).Contents (Elt Ideal)) (ValueIdx.ix1 k) := by
  have e : StableHlo.after hostOps2 W (Proc.devRef .tc main_v64)
      = fun i => shapeCast main_v64.ty.shape (W (Proc.devRef .tc main_arg6)) shapeCasts_S16_S1x16 i := by
    after_results_simp
  rw [e]
  refine shapeCast_apply _ shapeCasts_S16_S1x16 _ _ ?_
  rw [Shape.rowMajor_val_two, Shape.rowMajor_val_one]
  show k.val = 0 * 16 + k.val
  omega

end Cert.KernelIdeal.Hand

end
-- ==== Proof.KernelChain.lean ====
/-
  The kernel program's output as the reference's: the buffer contents at each boundary of the run, read back through the
  host operations between the three dense stages, are the reference's stage values of the seven arguments.
-/
import proofs.«119410_j53472342835547_2_alg».proof.Proof.Gen.KernelIdeal.Frame
import proofs.«119410_j53472342835547_2_alg».proof.Proof.RefRead
import proofs.«119410_j53472342835547_2_alg».proof.Proof.Spec
import proofs.«119410_j53472342835547_2_alg».proof.Proof.Reg0
import proofs.«119410_j53472342835547_2_alg».proof.Proof.Reg1
import proofs.«119410_j53472342835547_2_alg».proof.Proof.Reg2
import proofs.«119410_j53472342835547_2_alg».proof.Proof.RefSpec
import proofs.«119410_j53472342835547_2_alg».proof.Proof.KernelStretch
import Idealize.ShloMosaic.Lib.StableHlo.Run
import Idealize.ShloMosaic.Lib.Pipeline.Value
import Idealize.ShloMosaic.Lib.ValueIdx

noncomputable section
namespace Cert.KernelIdeal.Hand
open Cert.KernelIdeal Cert.KernelIdeal.Gen Idealize.ShloMosaic Idealize.ShloMosaic.TcCoe Idealize.ShloMosaic.ValueIdx Idealize.SL.Sem
open Idealize.ShloMosaic.StableHlo
open Idealize.ShloMosaic.Pipeline (Dat Cfg Window)

variable (m : (ℓ : Loc nD τ sig) → Buf (Elt Ideal) ℓ) (ρ : Dev nD → PrngReg)

namespace Chain

/-- Contents moved to a buffer's own type and back are unchanged. -/
theorem ofBuf_toBuf {T : BufTy} {Val : EltTy → Type} (x : StableHlo.TRef sig T) (v : T.Contents Val) :
    x.ofBuf (x.toBuf v) = v := by
  obtain ⟨r, h, _, _⟩ := x; subst h; rfl

/-! ## The host operations before the first stage, one stretch at a time over any contents `W` -/

section Stretches
variable (W : Valuation τ sig (Elt Ideal))
variable (x1 : (⟨Cert.ReferenceIdeal.S2x3200000, .i32⟩ : BufTy).Contents (Elt Ideal)) (x2 : (⟨Cert.ReferenceIdeal.S3200000, .f32⟩ : BufTy).Contents (Elt Ideal))

/-- The first selection, as operations of what it reads. -/
theorem s01_raw :
    StableHlo.after hostOps0_1 W (Proc.devRef .tc main_v14)
      = (select (W (Proc.devRef .tc main_v13)) (W (Proc.devRef .tc main_v11))
          (broadcastInDim S100000 ![] bcast_S_S100000 (id (W (Proc.devRef .tc main_cst_2)))) : (⟨S100000, .f32⟩ : BufTy).Contents (Elt Ideal)) := by
  after_results_simp
  simp only [ofBuf_toBuf]
  rfl

/-- The first selection (a degree of zero counts as one) is the reference's. -/
theorem s01_v14 (hc : W (Proc.devRef .tc main_cst_2) = Cert.ReferenceIdeal.Read.val_main_cst_2 (F := Ideal))
    (h13 : W (Proc.devRef .tc main_v13) = Cert.ReferenceIdeal.Read.val_main_v14 (F := Ideal) x1 x2)
    (h11 : W (Proc.devRef .tc main_v11) = Cert.ReferenceIdeal.Read.val_main_v12 (F := Ideal) x1 x2) :
    StableHlo.after hostOps0_1 W (Proc.devRef .tc main_v14) = Cert.ReferenceIdeal.Read.val_main_v15 (F := Ideal) x1 x2 := by
  rw [s01_raw, hc, h13, h11]
  rfl

/-- The second comparison of the degrees with zero. -/
theorem s02_v16 (h11 : W (Proc.devRef .tc main_v11) = Cert.ReferenceIdeal.Read.val_main_v12 (F := Ideal) x1 x2) :
    StableHlo.after hostOps0_2 W (Proc.devRef .tc main_v16) = Cert.ReferenceIdeal.Read.val_main_v17 (F := Ideal) x1 x2 := by
  after_results_simp
  rw [h11]
  rfl

/-- The inverse square roots of the degrees. -/
theorem s02_v17 (h14 : W (Proc.devRef .tc main_v14) = Cert.ReferenceIdeal.Read.val_main_v15 (F := Ideal) x1 x2) :
    StableHlo.after hostOps0_2 W (Proc.devRef .tc main_v17) = Cert.ReferenceIdeal.Read.val_main_v18 (F := Ideal) x1 x2 := by
  after_results_simp
  rw [h14]
  rfl

/-- The zero the second selection falls back to. -/
theorem s02_cst4 : StableHlo.after hostOps0_2 W (Proc.devRef .tc main_cst_4) = Cert.ReferenceIdeal.Read.val_main_cst_4 (F := Ideal) := by
  after_results_simp
  rfl

/-- The second selection, as operations of what it reads. -/
theorem s03_raw :
    StableHlo.after hostOps0_3 W (Proc.devRef .tc main_v18)
      = (select (W (Proc.devRef .tc main_v16)) (W (Proc.devRef .tc main_v17))
          (broadcastInDim S100000 ![] bcast_S_S100000 (id (W (Proc.devRef .tc main_cst_4)))) : (⟨S100000, .f32⟩ : BufTy).Contents (Elt Ideal)) := by
  after_results_simp
  simp only [ofBuf_toBuf]
  rfl

/-- The second selection (no inverse root for a degree of zero) is the reference's. -/
theorem s03_v18 (hc : W (Proc.devRef .tc main_cst_4) = Cert.ReferenceIdeal.Read.val_main_cst_4 (F := Ideal))
    (h16 : W (Proc.devRef .tc main_v16) = Cert.ReferenceIdeal.Read.val_main_v17 (F := Ideal) x1 x2)
    (h17 : W (Proc.devRef .tc main_v17) = Cert.ReferenceIdeal.Read.val_main_v18 (F := Ideal) x1 x2) :
    StableHlo.after hostOps0_3 W (Proc.devRef .tc main_v18) = Cert.ReferenceIdeal.Read.val_main_v19 (F := Ideal) x1 x2 := by
  rw [s03_raw, hc, h16, h17]
  rfl

/-- The edge normalisation: the inverse roots gathered at both ends of each edge, times the edge weights. -/
theorem s04_v34 (h3 : W (Proc.devRef .tc main_v3) = Cert.ReferenceIdeal.Read.val_main_v3 (F := Ideal) x1)
    (h6 : W (Proc.devRef .tc main_v6) = Cert.ReferenceIdeal.Read.val_main_v6 (F := Ideal) x1)
    (h8 : W (Proc.devRef .tc main_v8) = Cert.ReferenceIdeal.Read.val_main_v8 (F := Ideal) x2)
    (h18 : W (Proc.devRef .tc main_v18) = Cert.ReferenceIdeal.Read.val_main_v19 (F := Ideal) x1 x2) :
    StableHlo.after hostOps0_4 W (Proc.devRef .tc main_v34) = Cert.ReferenceIdeal.Read.val_main_v35 (F := Ideal) x1 x2 := by
  after_results_simp
  rw [h3, h6, h8, h18]
  rfl

end Stretches

/-! ## The contents at each boundary before the first stage -/

theorem W1_v11 (c : Dev nD) :
    W1 m ρ c (Proc.devRef .tc main_v11) = Cert.ReferenceIdeal.Read.val_main_v12 (F := Ideal) (m ((c.tc : Thread nD τ).loc main_arg1)) (m ((c.tc : Thread nD τ).loc main_arg2)) := by
  show StableHlo.after hostOps0 (W0 m ρ c) (Proc.devRef .tc main_v11) = _
  after_results_simp
  rfl
theorem W1_v13 (c : Dev nD) :
    W1 m ρ c (Proc.devRef .tc main_v13) = Cert.ReferenceIdeal.Read.val_main_v14 (F := Ideal) (m ((c.tc : Thread nD τ).loc main_arg1)) (m ((c.tc : Thread nD τ).loc main_arg2)) := by
  show StableHlo.after hostOps0 (W0 m ρ c) (Proc.devRef .tc main_v13) = _
  after_results_simp
  rfl
theorem W1_cst_2 (c : Dev nD) :
    W1 m ρ c (Proc.devRef .tc main_cst_2) = Cert.ReferenceIdeal.Read.val_main_cst_2 (F := Ideal) := by
  show StableHlo.after hostOps0 (W0 m ρ c) (Proc.devRef .tc main_cst_2) = _
  after_results_simp
  rfl
theorem W2_v11 (c : Dev nD) :
    W2 m ρ c (Proc.devRef .tc main_v11) = Cert.ReferenceIdeal.Read.val_main_v12 (F := Ideal) (m ((c.tc : Thread nD τ).loc main_arg1)) (m ((c.tc : Thread nD τ).loc main_arg2)) := by
  show StableHlo.after hostOps0_1 (StableHlo.after hostOps0 (W0 m ρ c)) (Proc.devRef .tc main_v11) = _
  after_results_simp
  rfl
theorem W4_v3 (c : Dev nD) :
    W4 m ρ c (Proc.devRef .tc main_v3) = Cert.ReferenceIdeal.Read.val_main_v3 (F := Ideal) (m ((c.tc : Thread nD τ).loc main_arg1)) := by
  show StableHlo.after hostOps0_3 (StableHlo.after hostOps0_2 (StableHlo.after hostOps0_1 (StableHlo.after hostOps0 (W0 m ρ c)))) (Proc.devRef .tc main_v3) = _
  after_results_simp
  rfl
theorem W4_v6 (c : Dev nD) :
    W4 m ρ c (Proc.devRef .tc main_v6) = Cert.ReferenceIdeal.Read.val_main_v6 (F := Ideal) (m ((c.tc : Thread nD τ).loc main_arg1)) := by
  show StableHlo.after hostOps0_3 (StableHlo.after hostOps0_2 (StableHlo.after hostOps0_1 (StableHlo.after hostOps0 (W0 m ρ c)))) (Proc.devRef .tc main_v6) = _
  after_results_simp
  rfl
theorem W4_v8 (c : Dev nD) :
    W4 m ρ c (Proc.devRef .tc main_v8) = Cert.ReferenceIdeal.Read.val_main_v8 (F := Ideal) (m ((c.tc : Thread nD τ).loc main_arg2)) := by
  show StableHlo.after hostOps0_3 (StableHlo.after hostOps0_2 (StableHlo.after hostOps0_1 (StableHlo.after hostOps0 (W0 m ρ c)))) (Proc.devRef .tc main_v8) = _
  after_results_simp
  rfl
theorem W5_v3 (c : Dev nD) :
    W5 m ρ c (Proc.devRef .tc main_v3) = Cert.ReferenceIdeal.Read.val_main_v3 (F := Ideal) (m ((c.tc : Thread nD τ).loc main_arg1)) := by
  show StableHlo.after hostOps0_4 (StableHlo.after hostOps0_3 (StableHlo.after hostOps0_2 (StableHlo.after hostOps0_1 (StableHlo.after hostOps0 (W0 m ρ c))))) (Proc.devRef .tc main_v3) = _
  after_results_simp
  rfl
theorem W5_v6 (c : Dev nD) :
    W5 m ρ c (Proc.devRef .tc main_v6) = Cert.ReferenceIdeal.Read.val_main_v6 (F := Ideal) (m ((c.tc : Thread nD τ).loc main_arg1)) := by
  show StableHlo.after hostOps0_4 (StableHlo.after hostOps0_3 (StableHlo.after hostOps0_2 (StableHlo.after hostOps0_1 (StableHlo.after hostOps0 (W0 m ρ c))))) (Proc.devRef .tc main_v6) = _
  after_results_simp
  rfl
theorem W5_arg0 (c : Dev nD) :
    W5 m ρ c (Proc.devRef .tc main_arg0) = (m ((c.tc : Thread nD τ).loc main_arg0)) := by
  show StableHlo.after hostOps0_4 (StableHlo.after hostOps0_3 (StableHlo.after hostOps0_2 (StableHlo.after hostOps0_1 (StableHlo.after hostOps0 (W0 m ρ c))))) (Proc.devRef .tc main_arg0) = _
  after_results_simp
theorem W5_arg3 (c : Dev nD) :
    W5 m ρ c (Proc.devRef .tc main_arg3) = (m ((c.tc : Thread nD τ).loc main_arg3)) := by
  show StableHlo.after hostOps0_4 (StableHlo.after hostOps0_3 (StableHlo.after hostOps0_2 (StableHlo.after hostOps0_1 (StableHlo.after hostOps0 (W0 m ρ c))))) (Proc.devRef .tc main_arg3) = _
  after_results_simp

theorem W2_v14 (c : Dev nD) : W2 m ρ c (Proc.devRef .tc main_v14) = Cert.ReferenceIdeal.Read.val_main_v15 (F := Ideal) (m ((c.tc : Thread nD τ).loc main_arg1)) (m ((c.tc : Thread nD τ).loc main_arg2)) :=
  s01_v14 (W1 m ρ c) _ _ (W1_cst_2 m ρ c) (W1_v13 m ρ c) (W1_v11 m ρ c)
theorem W3_v16 (c : Dev nD) : W3 m ρ c (Proc.devRef .tc main_v16) = Cert.ReferenceIdeal.Read.val_main_v17 (F := Ideal) (m ((c.tc : Thread nD τ).loc main_arg1)) (m ((c.tc : Thread nD τ).loc main_arg2)) :=
  s02_v16 (W2 m ρ c) _ _ (W2_v11 m ρ c)
theorem W3_v17 (c : Dev nD) : W3 m ρ c (Proc.devRef .tc main_v17) = Cert.ReferenceIdeal.Read.val_main_v18 (F := Ideal) (m ((c.tc : Thread nD τ).loc main_arg1)) (m ((c.tc : Thread nD τ).loc main_arg2)) :=
  s02_v17 (W2 m ρ c) _ _ (W2_v14 m ρ c)
theorem W3_cst_4 (c : Dev nD) : W3 m ρ c (Proc.devRef .tc main_cst_4) = Cert.ReferenceIdeal.Read.val_main_cst_4 (F := Ideal) :=
  s02_cst4 (W2 m ρ c)
theorem W4_v18 (c : Dev nD) : W4 m ρ c (Proc.devRef .tc main_v18) = Cert.ReferenceIdeal.Read.val_main_v19 (F := Ideal) (m ((c.tc : Thread nD τ).loc main_arg1)) (m ((c.tc : Thread nD τ).loc main_arg2)) :=
  s03_v18 (W3 m ρ c) _ _ (W3_cst_4 m ρ c) (W3_v16 m ρ c) (W3_v17 m ρ c)
/-- At the first stage's entry the edge normalisation is the reference's. -/
theorem W5_v34 (c : Dev nD) : W5 m ρ c (Proc.devRef .tc main_v34) = Cert.ReferenceIdeal.Read.val_main_v35 (F := Ideal) (m ((c.tc : Thread nD τ).loc main_arg1)) (m ((c.tc : Thread nD τ).loc main_arg2)) :=
  s04_v34 (W4 m ρ c) _ _ (W4_v3 m ρ c) (W4_v6 m ρ c) (W4_v8 m ρ c) (W4_v18 m ρ c)

theorem W5_arg4 (c : Dev nD) :
    W5 m ρ c (Proc.devRef .tc main_arg4) = (m ((c.tc : Thread nD τ).loc main_arg4)) := by
  show StableHlo.after hostOps0_4 (StableHlo.after hostOps0_3 (StableHlo.after hostOps0_2 (StableHlo.after hostOps0_1 (StableHlo.after hostOps0 (W0 m ρ c))))) (Proc.devRef .tc main_arg4) = _
  after_results_simp
theorem W5_arg5 (c : Dev nD) :
    W5 m ρ c (Proc.devRef .tc main_arg5) = (m ((c.tc : Thread nD τ).loc main_arg5)) := by
  show StableHlo.after hostOps0_4 (StableHlo.after hostOps0_3 (StableHlo.after hostOps0_2 (StableHlo.after hostOps0_1 (StableHlo.after hostOps0 (W0 m ρ c))))) (Proc.devRef .tc main_arg5) = _
  after_results_simp
theorem W5_arg6 (c : Dev nD) :
    W5 m ρ c (Proc.devRef .tc main_arg6) = (m ((c.tc : Thread nD τ).loc main_arg6)) := by
  show StableHlo.after hostOps0_4 (StableHlo.after hostOps0_3 (StableHlo.after hostOps0_2 (StableHlo.after hostOps0_1 (StableHlo.after hostOps0 (W0 m ρ c))))) (Proc.devRef .tc main_arg6) = _
  after_results_simp

/-! ## The first stage's exit -/

/-- The first stage's output is the reference's first product. -/
theorem W6_v35 (c : Dev nD) : W6 m ρ c (Proc.devRef .tc main_v35) = Cert.ReferenceIdeal.Read.val_main_v9 (F := Ideal) (m ((c.tc : Thread nD τ).loc main_arg0)) (m ((c.tc : Thread nD τ).loc main_arg3)) := by
  have e : W6 m ρ c (Proc.devRef .tc main_v35) = (dat0 (F := Ideal) (V5 m ρ) c).arrAt 2 cfg0.N := W6_arr m ρ c 2
  have a0 : V5 m ρ c main_arg0 = (m ((c.tc : Thread nD τ).loc main_arg0)) := W5_arg0 m ρ c
  have a3 : V5 m ρ c main_arg3 = (m ((c.tc : Thread nD τ).loc main_arg3)) := W5_arg3 m ρ c
  rw [e, reg0_value (V5 m ρ) c, Cert.ReferenceIdeal.RefSpec.ref_dense1, a0, a3]

theorem W6_v3 (c : Dev nD) : W6 m ρ c (Proc.devRef .tc main_v3) = Cert.ReferenceIdeal.Read.val_main_v3 (F := Ideal) (m ((c.tc : Thread nD τ).loc main_arg1)) :=
  (W6_of_ne m ρ c main_v3 (by decide)).trans (W5_v3 m ρ c)
theorem W6_v6 (c : Dev nD) : W6 m ρ c (Proc.devRef .tc main_v6) = Cert.ReferenceIdeal.Read.val_main_v6 (F := Ideal) (m ((c.tc : Thread nD τ).loc main_arg1)) :=
  (W6_of_ne m ρ c main_v6 (by decide)).trans (W5_v6 m ρ c)
theorem W6_v34 (c : Dev nD) : W6 m ρ c (Proc.devRef .tc main_v34) = Cert.ReferenceIdeal.Read.val_main_v35 (F := Ideal) (m ((c.tc : Thread nD τ).loc main_arg1)) (m ((c.tc : Thread nD τ).loc main_arg2)) :=
  (W6_of_ne m ρ c main_v34 (by decide)).trans (W5_v34 m ρ c)
theorem W6_arg4 (c : Dev nD) : W6 m ρ c (Proc.devRef .tc main_arg4) = (m ((c.tc : Thread nD τ).loc main_arg4)) :=
  (W6_of_ne m ρ c main_arg4 (by decide)).trans (W5_arg4 m ρ c)
theorem W6_arg5 (c : Dev nD) : W6 m ρ c (Proc.devRef .tc main_arg5) = (m ((c.tc : Thread nD τ).loc main_arg5)) :=
  (W6_of_ne m ρ c main_arg5 (by decide)).trans (W5_arg5 m ρ c)
theorem W6_arg6 (c : Dev nD) : W6 m ρ c (Proc.devRef .tc main_arg6) = (m ((c.tc : Thread nD τ).loc main_arg6)) :=
  (W6_of_ne m ρ c main_arg6 (by decide)).trans (W5_arg6 m ρ c)

/-! ## The second stage's entry -/

/-- The first aggregate is the reference's. -/
theorem W7_v48 (c : Dev nD) : W7 m ρ c (Proc.devRef .tc main_v48) = Cert.ReferenceIdeal.Read.val_main_v48 (F := Ideal) (m ((c.tc : Thread nD τ).loc main_arg0)) (m ((c.tc : Thread nD τ).loc main_arg1)) (m ((c.tc : Thread nD τ).loc main_arg2)) (m ((c.tc : Thread nD τ).loc main_arg3)) :=
  stretch1_v48 (W6 m ρ c) _ _ _ _ (W6_v35 m ρ c) (W6_v3 m ρ c) (W6_v6 m ρ c) (W6_v34 m ρ c)
theorem W7_v3 (c : Dev nD) : W7 m ρ c (Proc.devRef .tc main_v3) = Cert.ReferenceIdeal.Read.val_main_v3 (F := Ideal) (m ((c.tc : Thread nD τ).loc main_arg1)) :=
  (stretch1_keeps (W6 m ρ c)).1.trans (W6_v3 m ρ c)
theorem W7_v6 (c : Dev nD) : W7 m ρ c (Proc.devRef .tc main_v6) = Cert.ReferenceIdeal.Read.val_main_v6 (F := Ideal) (m ((c.tc : Thread nD τ).loc main_arg1)) :=
  (stretch1_keeps (W6 m ρ c)).2.1.trans (W6_v6 m ρ c)
theorem W7_v34 (c : Dev nD) : W7 m ρ c (Proc.devRef .tc main_v34) = Cert.ReferenceIdeal.Read.val_main_v35 (F := Ideal) (m ((c.tc : Thread nD τ).loc main_arg1)) (m ((c.tc : Thread nD τ).loc main_arg2)) :=
  (stretch1_keeps (W6 m ρ c)).2.2.1.trans (W6_v34 m ρ c)
theorem W7_arg5 (c : Dev nD) : W7 m ρ c (Proc.devRef .tc main_arg5) = (m ((c.tc : Thread nD τ).loc main_arg5)) :=
  (stretch1_keeps (W6 m ρ c)).2.2.2.1.trans (W6_arg5 m ρ c)
theorem W7_arg6 (c : Dev nD) : W7 m ρ c (Proc.devRef .tc main_arg6) = (m ((c.tc : Thread nD τ).loc main_arg6)) :=
  (stretch1_keeps (W6 m ρ c)).2.2.2.2.trans (W6_arg6 m ρ c)
/-- The first bias as one row. -/
theorem W7_v49 (c : Dev nD) (k : Fin 64) :
    (W7 m ρ c (Proc.devRef .tc main_v49) : (⟨S1x64, .f32⟩ : BufTy).Contents (Elt Ideal)) (ix2 (0 : Fin 1) k)
      = ((m ((c.tc : Thread nD τ).loc main_arg4)) : (⟨S64, .f32⟩ : BufTy).Contents (Elt Ideal)) (ix1 k) :=
  (stretch1_v49 (W6 m ρ c) k).trans (congrFun (W6_arg4 m ρ c) (ix1 k))

/-! ## The second stage's exit -/

/-- The second stage's output is the reference's second product. -/
theorem W8_v50 (c : Dev nD) : W8 m ρ c (Proc.devRef .tc main_v50) = Cert.ReferenceIdeal.Read.val_main_v53 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  have e : W8 m ρ c (Proc.devRef .tc main_v50) = (dat1 (F := Ideal) (V7 m ρ) c).arrAt 3 cfg1.N := W8_arr m ρ c 3
  have a48 : V7 m ρ c main_v48 = Cert.ReferenceIdeal.Read.val_main_v48 (F := Ideal) (m ((c.tc : Thread nD τ).loc main_arg0)) (m ((c.tc : Thread nD τ).loc main_arg1)) (m ((c.tc : Thread nD τ).loc main_arg2)) (m ((c.tc : Thread nD τ).loc main_arg3)) := W7_v48 m ρ c
  have a5 : V7 m ρ c main_arg5 = (m ((c.tc : Thread nD τ).loc main_arg5)) := W7_arg5 m ρ c
  rw [e, reg1_value (V7 m ρ) c, Cert.ReferenceIdeal.RefSpec.ref_dense2 _ _ _ _ _ _ (V7 m ρ c main_v49) (W7_v49 m ρ c), a48, a5]

theorem W8_v3 (c : Dev nD) : W8 m ρ c (Proc.devRef .tc main_v3) = Cert.ReferenceIdeal.Read.val_main_v3 (F := Ideal) (m ((c.tc : Thread nD τ).loc main_arg1)) :=
  (W8_of_ne m ρ c main_v3 (by decide)).trans (W7_v3 m ρ c)
theorem W8_v6 (c : Dev nD) : W8 m ρ c (Proc.devRef .tc main_v6) = Cert.ReferenceIdeal.Read.val_main_v6 (F := Ideal) (m ((c.tc : Thread nD τ).loc main_arg1)) :=
  (W8_of_ne m ρ c main_v6 (by decide)).trans (W7_v6 m ρ c)
theorem W8_v34 (c : Dev nD) : W8 m ρ c (Proc.devRef .tc main_v34) = Cert.ReferenceIdeal.Read.val_main_v35 (F := Ideal) (m ((c.tc : Thread nD τ).loc main_arg1)) (m ((c.tc : Thread nD τ).loc main_arg2)) :=
  (W8_of_ne m ρ c main_v34 (by decide)).trans (W7_v34 m ρ c)
theorem W8_arg6 (c : Dev nD) : W8 m ρ c (Proc.devRef .tc main_arg6) = (m ((c.tc : Thread nD τ).loc main_arg6)) :=
  (W8_of_ne m ρ c main_arg6 (by decide)).trans (W7_arg6 m ρ c)

/-! ## The third stage's entry -/

/-- The second aggregate is the reference's. -/
theorem W9_v63 (c : Dev nD) : W9 m ρ c (Proc.devRef .tc main_v63) = Cert.ReferenceIdeal.Read.val_main_v92 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  stretch2_v63 (W8 m ρ c) _ _ _ _ _ _ (W8_v50 m ρ c) (W8_v3 m ρ c) (W8_v6 m ρ c) (W8_v34 m ρ c)
/-- The second bias as one row. -/
theorem W9_v64 (c : Dev nD) (k : Fin 16) :
    (W9 m ρ c (Proc.devRef .tc main_v64) : (⟨S1x16, .f32⟩ : BufTy).Contents (Elt Ideal)) (ix2 (0 : Fin 1) k)
      = ((m ((c.tc : Thread nD τ).loc main_arg6)) : (⟨S16, .f32⟩ : BufTy).Contents (Elt Ideal)) (ix1 k) :=
  (stretch2_v64 (W8 m ρ c) k).trans (congrFun (W8_arg6 m ρ c) (ix1 k))

end Chain

/-- The kernel program's output array is the reference's result, as functions of the seven arguments. -/
theorem kernel_value (c : Dev nD) :
    (dat2 (F := Ideal) (V9 m ρ) c).arrAt 2 cfg2.N
      = Cert.ReferenceIdeal.Read.val_main_v96 (F := Ideal)
          (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) := by
  have a63 : V9 m ρ c main_v63 = Cert.ReferenceIdeal.Read.val_main_v92 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := Chain.W9_v63 m ρ c
  rw [reg2_value (V9 m ρ) c, Cert.ReferenceIdeal.RefSpec.ref_logSoftmax _ _ _ _ _ _ _ (V9 m ρ c main_v64) (Chain.W9_v64 m ρ c), a63]

end Cert.KernelIdeal.Hand
end
-- ==== Proof.RefValue.lean ====
/-
  The reference program's run, read back as its last stage. The program is a straight line of host operations; its
  result buffer ends at the composition of those operations applied to the launch contents of the argument arrays,
  and that composition is the stage `val_main_v96` of the argument arrays. The list is cut after its first ten
  operations — the edge endpoints and weights with the self loops joined on —, whose three joined arrays are read first;
  the remaining operations are then read from contents in which those three arrays are given. The operations of the
  called functions read and write their buffers through the buffers' declared types; a value carried to a buffer's
  type and back is the value.
-/
import proofs.«119410_j53472342835547_2_alg».proof.Proof.RefRun
import proofs.«119410_j53472342835547_2_alg».proof.Proof.RefRead

noncomputable section

namespace Cert.ReferenceIdeal.RefValue

open Cert.ReferenceIdeal Cert.ReferenceIdeal.Gen Cert.ReferenceIdeal.Value
open Idealize.ShloMosaic Idealize.ShloMosaic.TcCoe Idealize.SL.Sem Idealize.ShloMosaic.StableHlo

variable {F : FTy → Type} [FloatOps F]

/-- A value carried to a buffer's own type and back is the value. -/
theorem ofBuf_toBuf {sig : RefSig} {T : BufTy} {Val : EltTy → Type} (x : TRef sig T) (v : T.Contents Val) :
    x.ofBuf (x.toBuf v) = v := by
  obtain ⟨r, h, _, _⟩ := x
  subst h
  rfl

/-- The contents after a list cut in two: the second part run from the contents after the first. -/
theorem after_append' {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => exact ih (op.result V)

/-- The first ten operations: the endpoints' rows cut out of the edge array, each joined with the node numbers, and the
    edge weights joined with a one per node. -/
abbrev head : List (HloOp τ sig (Elt F)) := (ops (F := F)).take 10
/-- The other 136 operations. -/
abbrev tail : List (HloOp τ sig (Elt F)) := (ops (F := F)).drop 10

set_option maxRecDepth 16384 in
/-- After the first ten operations the joined source endpoints are the stage `val_main_v3` of the edge array … -/
theorem head_v3 (W : Valuation τ sig (Elt F)) :
    after (head (F := F)) W (Proc.devRef .tc main_v3) = Read.val_main_v3 (F := F) (W (Proc.devRef .tc main_arg1)) := by
  simp only [head, ops, List.take_succ_cons, List.take_zero]
  after_results_simp
  rfl
set_option maxRecDepth 16384 in
/-- … the joined target endpoints the stage `val_main_v6` … -/
theorem head_v6 (W : Valuation τ sig (Elt F)) :
    after (head (F := F)) W (Proc.devRef .tc main_v6) = Read.val_main_v6 (F := F) (W (Proc.devRef .tc main_arg1)) := by
  simp only [head, ops, List.take_succ_cons, List.take_zero]
  after_results_simp
  rfl
set_option maxRecDepth 16384 in
/-- … the joined weights the stage `val_main_v8` of the weight array … -/
theorem head_v8 (W : Valuation τ sig (Elt F)) :
    after (head (F := F)) W (Proc.devRef .tc main_v8) = Read.val_main_v8 (F := F) (W (Proc.devRef .tc main_arg2)) := by
  simp only [head, ops, List.take_succ_cons, List.take_zero]
  after_results_simp
  rfl
set_option maxRecDepth 16384 in
/-- … and no argument array has been written. -/
theorem head_arg (W : Valuation τ sig (Elt F)) :
    after (head (F := F)) W (Proc.devRef .tc main_arg0) = W (Proc.devRef .tc main_arg0)
    ∧ after (head (F := F)) W (Proc.devRef .tc main_arg1) = W (Proc.devRef .tc main_arg1)
    ∧ after (head (F := F)) W (Proc.devRef .tc main_arg2) = W (Proc.devRef .tc main_arg2)
    ∧ after (head (F := F)) W (Proc.devRef .tc main_arg3) = W (Proc.devRef .tc main_arg3)
    ∧ after (head (F := F)) W (Proc.devRef .tc main_arg4) = W (Proc.devRef .tc main_arg4)
    ∧ after (head (F := F)) W (Proc.devRef .tc main_arg5) = W (Proc.devRef .tc main_arg5)
    ∧ after (head (F := F)) W (Proc.devRef .tc main_arg6) = W (Proc.devRef .tc main_arg6) := by
  simp only [head, ops, List.take_succ_cons, List.take_zero]
  refine ⟨?_, ?_, ?_, ?_, ?_, ?_, ?_⟩ <;> after_results_simp

set_option maxRecDepth 16384 in
set_option maxHeartbeats 58400000 in
/-- What the result buffer holds after all the operations, from the launch contents: the last stage of the argument arrays. -/
theorem value (m : (ℓ : Loc nD τ sig) → Buf (Elt F) ℓ) (c : Dev nD) :
    after (ops (F := F)) (launchContents m c) (Proc.devRef .tc main_v96)
      = Read.val_main_v96 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  have hs : (ops (F := F)) = head ++ tail := (List.take_append_drop 10 ops).symm
  rw [hs, after_append']
  have h3 : after (head (F := F)) (launchContents m c) (Proc.devRef .tc main_v3) = Read.val_main_v3 (F := F) (m ((c.tc : Thread nD τ).loc main_arg1)) := head_v3 _
  have h6 : after (head (F := F)) (launchContents m c) (Proc.devRef .tc main_v6) = Read.val_main_v6 (F := F) (m ((c.tc : Thread nD τ).loc main_arg1)) := head_v6 _
  have h8 : after (head (F := F)) (launchContents m c) (Proc.devRef .tc main_v8) = Read.val_main_v8 (F := F) (m ((c.tc : Thread nD τ).loc main_arg2)) := head_v8 _
  obtain ⟨a0, a1, a2, a3, a4, a5, a6⟩ := head_arg (F := F) (launchContents m c)
  have b0 : after (head (F := F)) (launchContents m c) (Proc.devRef .tc main_arg0) = (m ((c.tc : Thread nD τ).loc main_arg0)) := a0
  have b1 : after (head (F := F)) (launchContents m c) (Proc.devRef .tc main_arg1) = (m ((c.tc : Thread nD τ).loc main_arg1)) := a1
  have b2 : after (head (F := F)) (launchContents m c) (Proc.devRef .tc main_arg2) = (m ((c.tc : Thread nD τ).loc main_arg2)) := a2
  have b3 : after (head (F := F)) (launchContents m c) (Proc.devRef .tc main_arg3) = (m ((c.tc : Thread nD τ).loc main_arg3)) := a3
  have b4 : after (head (F := F)) (launchContents m c) (Proc.devRef .tc main_arg4) = (m ((c.tc : Thread nD τ).loc main_arg4)) := a4
  have b5 : after (head (F := F)) (launchContents m c) (Proc.devRef .tc main_arg5) = (m ((c.tc : Thread nD τ).loc main_arg5)) := a5
  have b6 : after (head (F := F)) (launchContents m c) (Proc.devRef .tc main_arg6) = (m ((c.tc : Thread nD τ).loc main_arg6)) := a6
  clear a0 a1 a2 a3 a4 a5 a6
  generalize after (head (F := F)) (launchContents m c) = W₁ at h3 h6 h8 b0 b1 b2 b3 b4 b5 b6 ⊢
  simp only [tail, ops, List.drop_succ_cons, List.drop_zero]
  after_results_simp
  simp only [ofBuf_toBuf, h3, h6, h8, b0, b1, b2, b3, b4, b5, b6]
  rfl

set_option maxRecDepth 16384 in
set_option maxHeartbeats 58400000 in
/-- On every device, from any memory with zero counters: every weakly fair execution of the reference program
    terminates, nothing faulting, with the result buffer at the last stage of the argument arrays and the argument
    arrays as launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v96) = Read.val_main_v96 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v96).trans (value m c),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl)⟩)
    (run_seq scopedRefs_eq scopedSems_eq defs main (fun _ => ops) main_eq (fun _ => ops_sub) m ρ)

end Cert.ReferenceIdeal.RefValue

end
-- ==== Proof.lean ====
/-
  The certificate of the graph network: the kernel program (three dense kernels with a gather / scatter chain on the
  host between them) against its jnp reference, at the exact values.

  What the kernel computes. Stage one multiplies the [100000, 512] features by the [512, 64] weights: entry (p, q) is
  the sum over k of x[p, k] · w[k, q]. The host then normalises the edge weights once (a self-loop of weight one
  appended at every node, the weights summed into each node's degree by a scatter-add, and from the degrees one
  normalised weight per edge) and aggregates: it gathers stage one's rows at one end of every edge, scales each by the
  edge's normalised weight, and scatter-adds them at the other end. Stage two adds the bias row, clamps at zero and
  multiplies by the [64, 16] weights: the sum over k of max(a[p, k] + b[k], 0) · w[k, q]. The host aggregates again with
  the same normalised edge weights. Stage three adds the second bias row and takes, row by row, the logarithm of the
  softmax: (x[q] − m) − log Σ_j exp (x[j] − m), m the row's largest entry.

  What the reference computes. The same network written with jnp operations only: the two products are dot_generals,
  the rectifier a maximum with zero, the log-softmax a row maximum, a subtraction, an exponential, a row sum and a
  logarithm; the edge normalisation is computed twice, once before each aggregation, from the same edge arrays.

  Why the two are one function at the exact values. Over the extended reals every operation is exact and a change of
  format is the identity, so each dense kernel, read entry by entry through its blocks, is the same finite sum (or the
  same row expression) as the reference's operation; the gather / scatter chain is shared operation for operation; and
  the reference's twice-computed edge normalisation is the kernel's once-computed one, being the same function of the
  same arguments. Both results are therefore one term of the argument arrays, and the two runs end with it.
-/
import proofs.«119410_j53472342835547_2_alg».proof.Defs
import proofs.«119410_j53472342835547_2_alg».proof.Proof.Gen.Kernel
import proofs.«119410_j53472342835547_2_alg».proof.Proof.Gen.Kernel.Skeleton
import proofs.«119410_j53472342835547_2_alg».proof.Proof.Gen.Kernel.Launch
import proofs.«119410_j53472342835547_2_alg».proof.Proof.Gen.Kernel.Points
import proofs.«119410_j53472342835547_2_alg».proof.Proof.Gen.Kernel.Frame
import proofs.«119410_j53472342835547_2_alg».proof.Proof.Gen.KernelIdeal
import proofs.«119410_j53472342835547_2_alg».proof.Proof.Gen.KernelIdeal.Skeleton
import proofs.«119410_j53472342835547_2_alg».proof.Proof.Gen.KernelIdeal.Launch
import proofs.«119410_j53472342835547_2_alg».proof.Proof.Gen.KernelIdeal.Points
import proofs.«119410_j53472342835547_2_alg».proof.Proof.Gen.KernelIdeal.Frame
import proofs.«119410_j53472342835547_2_alg».proof.Proof.Gen.ReferenceIdeal
import proofs.«119410_j53472342835547_2_alg».proof.Proof.Gen.Pre_finite_inputs
import proofs.«119410_j53472342835547_2_alg».proof.Proof.KernelRun
import proofs.«119410_j53472342835547_2_alg».proof.Proof.KernelChain
import proofs.«119410_j53472342835547_2_alg».proof.Proof.RefRead
import proofs.«119410_j53472342835547_2_alg».proof.Proof.RefValue
import Idealize.ShloMosaic.Adequacy
import Idealize.ShloMosaic.Init

noncomputable section

/-! ## The kernel's run, its result at the reference's term -/

namespace Cert.KernelIdeal.Hand

open Cert.KernelIdeal Cert.KernelIdeal.Gen Idealize.ShloMosaic Idealize.ShloMosaic.TcCoe Idealize.SL.Sem

/-- Every weakly fair execution of the kernel program at the exact values terminates, nothing faulting, with the result
    array at the reference's term of the argument arrays and the argument arrays as launched. -/
theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v65) = Cert.ReferenceIdeal.Read.val_main_v96 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨(h c).1.trans (kernel_value m ρ c), (h c).2⟩) (run_result (F := Ideal) m ρ)

end Cert.KernelIdeal.Hand

/-! ## The claims -/

namespace Cert.Proof

open Idealize.ShloMosaic Idealize.SL.Sem

/-- The kernel program as printed runs and leaves its arguments unchanged. -/
theorem frame_kernel : Cert.frame_Kernel := fun m ρ _ => Cert.Kernel.Gen.frame m ρ

/-- So does its reading at the exact values. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.RefValue.run (F := Ideal) m ρ)

/-- The exact-value reading rewrote no operation. -/
theorem preserves : Cert.preserves_Kernel_KernelIdeal := trivial

/-- At the exact values, from memories that agree on the seven arguments, both programs run and end with one and the
    same result: the reference's term of the kernel's argument arrays. -/
theorem algebraic : Cert.algebraic_KernelIdeal_ReferenceIdeal := by
  intro m ρ m' ρ' _ hagree
  refine ⟨_, Cert.KernelIdeal.Hand.run_value m ρ, ?_⟩
  refine (θ_run Cert.ReferenceIdeal.defs _ _).mono (fun _ h c => ⟨(h c).1.trans ?_, (h c).2⟩)
    (Cert.ReferenceIdeal.RefValue.run (F := Ideal) m' ρ')
  rw [(hagree c).1, (hagree c).2.1, (hagree c).2.2.1, (hagree c).2.2.2.1, (hagree c).2.2.2.2.1, (hagree c).2.2.2.2.2.1,
    (hagree c).2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
